-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S2x1600000 : Shape := ⟨2, ![2, 1600000]⟩
abbrev S1x128 : Shape := ⟨2, ![1, 128]⟩
abbrev S128 : Shape := ⟨1, ![128]⟩
abbrev S3x128x128 : Shape := ⟨3, ![3, 128, 128]⟩
abbrev S3x128 : Shape := ⟨2, ![3, 128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S50000 : S_.BroadcastsInDim S50000 (![] : Fin 0 → Fin S50000.rank)
  reducesTo_S50000_S_d0 : S50000.ReducesTo [0] S_
  h_S_ : 0 < S_.numel
  bcast_S_S1x128 : S_.BroadcastsInDim S1x128 (![] : Fin 0 → Fin S1x128.rank)
  reducesTo_S1x128_S_d0_1 : S1x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S128x1 .f32) (main_arg10 : FVec F S1 .f32) (main_v33 : IVec S_ 1) : IVec S_ 1 :=
  let main_v34 : FVec F S128x1 .f32 := Host.absf main_arg9
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S3x128 .f32) (main_arg7 : FVec F S128x128 .f32) (main_arg8 : FVec F S128 .f32) (main_arg9 : FVec F S128x1 .f32) (main_arg10 : FVec F S1 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg6
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S50000 .f32) (main_arg1 : IVec S2x1600000 32) (main_arg2 : IVec S50000 32) (main_arg3 : FVec F S1x128 .f32) (main_arg4 : FVec F S128 .f32) (main_arg5 : FVec F S3x128x128 .f32) (main_arg6 : FVec F S3x128 .f32) (main_arg7 : FVec F S128x128 .f32) (main_arg8 : FVec F S128 .f32) (main_arg9 : FVec F S128x1 .f32) (main_arg10 : FVec F S1 .f32) : IVec S_ 1 :=
  let main_v0 : FVec F S50000 .f32 := Host.absf main_arg0
  let main_cst : FVec F S_ .f32 := constant S_ .f32 0x7F800000#32
  let main_v1 : FVec F S50000 .f32 := broadcastInDim S50000 ![] bcast_S_S50000 main_cst
  let main_v2 : IVec S50000 1 := cmpf .olt main_v0 main_v1
  let main_c : IVec S_ 1 := constantI S_ 1 1#1
  let main_v3 : IVec S_ 1 := (fun x v => Host.reduce IntOp.andi x v reducesTo_S50000_S_d0 h_S_) main_v2 main_c
  let main_v4 : FVec F S1x128 .f32 := Host.absf main_arg3
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S3x128x128 .f32 := Host.absf main_arg5
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg6 main_arg7 main_arg8 main_arg9 main_arg10 main_v13 main_v16
-- ==== Kernel.lean ====
abbrev S50000 : Shape := ⟨1, ![50000]⟩
abbrev S2x1600000 : Shape := ⟨2, ![2, 1600000]⟩
abbrev S1x128 : Shape := ⟨2, ![1, 128]⟩
abbrev S128 : Shape := ⟨1, ![128]⟩
abbrev S3x128x128 : Shape := ⟨3, ![3, 128, 128]⟩
abbrev S3x128 : Shape := ⟨2, ![3, 128]⟩
abbrev S128x128 : Shape := ⟨2, ![128, 128]⟩
abbrev S128x1 : Shape := ⟨2, ![128, 1]⟩
abbrev S1 : Shape := ⟨1, ![1]⟩
abbrev S50000x1 : Shape := ⟨2, ![50000, 1]⟩
abbrev S50000x128 : Shape := ⟨2, ![50000, 128]⟩
abbrev S5000x1 : Shape := ⟨2, ![5000, 1]⟩
abbrev S5000x128 : Shape := ⟨2, ![5000, 128]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S1x128x128 : Shape := ⟨3, ![1, 128, 128]⟩
abbrev S1650000x128 : Shape := ⟨2, ![1650000, 128]⟩
abbrev S32x128 : Shape := ⟨2, ![32, 128]⟩
abbrev S1x1 : Shape := ⟨2, ![1, 1]⟩
abbrev S32x1 : Shape := ⟨2, ![32, 1]⟩

abbrev nBuf : Space → Nat
  | .hbm => 131
  | .vmem => 27
  | .smem => 0
  | _ => 0

abbrev hbmTy0_0 (i : Nat) : BufTy := match i % 128 with
  | 0 => ⟨S50000, .f32⟩
  | 1 => ⟨S2x1600000, .i32⟩
  | 2 => ⟨S50000, .i32⟩
  | 3 => ⟨S1x128, .f32⟩
  | 4 => ⟨S128, .f32⟩
  | 5 => ⟨S3x128x128, .f32⟩
  | 6 => ⟨S3x128, .f32⟩
  | 7 => ⟨S128x128, .f32⟩
  | 8 => ⟨S128, .f32⟩
  | 9 => ⟨S128x1, .f32⟩
  | 10 => ⟨S1, .f32⟩
  | 11 => ⟨S50000x1, .f32⟩
  | 12 => ⟨S1x128, .f32⟩
  | 13 => ⟨S50000x128, .f32⟩
  | 14 => ⟨S50000, .i32⟩
  | 15 => ⟨S1x1600000, .i32⟩
  | 16 => ⟨S1600000, .i32⟩
  | 17 => ⟨S1650000, .i32⟩
  | 18 => ⟨S1x1600000, .i32⟩
  | 19 => ⟨S1600000, .i32⟩
  | 20 => ⟨S1650000, .i32⟩
  | 21 => ⟨S_, .f32⟩
  | 22 => ⟨S1650000, .f32⟩
  | 23 => ⟨S_, .f32⟩
  | 24 => ⟨S50000, .f32⟩
  | 25 => ⟨S1650000x1, .i32⟩
  | 26 => ⟨S50000, .f32⟩
  | 27 => ⟨S_, .f32⟩
  | 28 => ⟨S50000, .f32⟩
  | 29 => ⟨S50000, .i1⟩
  | 30 => ⟨S50000, .f32⟩
  | 31 => ⟨S_, .f32⟩
  | 32 => ⟨S_, .f32⟩
  | 33 => ⟨S50000, .f32⟩
  | 34 => ⟨S50000, .f32⟩
  | 35 => ⟨S_, .i32⟩
  | 36 => ⟨S1650000, .i32⟩
  | 37 => ⟨S1650000, .i1⟩
  | 38 => ⟨S_, .i32⟩
  | 39 => ⟨S1650000, .i32⟩
  | 40 => ⟨S1650000, .i32⟩
  | 41 => ⟨S1650000, .i32⟩
  | 42 => ⟨S1650000x1, .i32⟩
  | 43 => ⟨S1650000, .f32⟩
  | 44 => ⟨S_, .i32⟩
  | 45 => ⟨S1650000, .i32⟩
  | 46 => ⟨S1650000, .i1⟩
  | 47 => ⟨S_, .i32⟩
  | 48 => ⟨S1650000, .i32⟩
  | 49 => ⟨S1650000, .i32⟩
  | 50 => ⟨S1650000, .i32⟩
  | 51 => ⟨S1650000x1, .i32⟩
  | 52 => ⟨S1650000, .f32⟩
  | 53 => ⟨S1650000, .f32⟩
  | 54 => ⟨S1650000x1, .f32⟩
  | 55 => ⟨S1x128x128, .f32⟩
  | 56 => ⟨S128x128, .f32⟩
  | 57 => ⟨S50000x128, .f32⟩
  | 58 => ⟨S_, .i32⟩
  | 59 => ⟨S1650000, .i32⟩
  | 60 => ⟨S1650000, .i1⟩
  | 61 => ⟨S_, .i32⟩
  | 62 => ⟨S1650000, .i32⟩
  | 63 => ⟨S1650000, .i32⟩
  | 64 => ⟨S1650000, .i32⟩
  | 65 => ⟨S1650000x1, .i32⟩
  | 66 => ⟨S1650000x128, .f32⟩
  | 67 => ⟨S1650000x128, .f32⟩
  | 68 => ⟨S1650000x128, .f32⟩
  | 69 => ⟨S_, .f32⟩
  | 70 => ⟨S50000x128, .f32⟩
  | 71 => ⟨S1650000x1, .i32⟩
  | 72 => ⟨S50000x128, .f32⟩
  | 73 => ⟨S1x128, .f32⟩
  | 74 => ⟨S128, .f32⟩
  | 75 => ⟨S1x128, .f32⟩
  | 76 => ⟨S50000x128, .f32⟩
  | 77 => ⟨S50000x128, .f32⟩
  | 78 => ⟨S1x128x128, .f32⟩
  | 79 => ⟨S128x128, .f32⟩
  | 80 => ⟨S50000x128, .f32⟩
  | 81 => ⟨S_, .i32⟩
  | 82 => ⟨S1650000, .i32⟩
  | 83 => ⟨S1650000, .i1⟩
  | 84 => ⟨S_, .i32⟩
  | 85 => ⟨S1650000, .i32⟩
  | 86 => ⟨S1650000, .i32⟩
  | 87 => ⟨S1650000, .i32⟩
  | 88 => ⟨S1650000x1, .i32⟩
  | 89 => ⟨S1650000x128, .f32⟩
  | 90 => ⟨S1650000x128, .f32⟩
  | 91 => ⟨S1650000x128, .f32⟩
  | 92 => ⟨S_, .f32⟩
  | 93 => ⟨S50000x128, .f32⟩
  | 94 => ⟨S1650000x1, .i32⟩
  | 95 => ⟨S50000x128, .f32⟩
  | 96 => ⟨S1x128, .f32⟩
  | 97 => ⟨S128, .f32⟩
  | 98 => ⟨S1x128, .f32⟩
  | 99 => ⟨S50000x128, .f32⟩
  | 100 => ⟨S50000x128, .f32⟩
  | 101 => ⟨S1x128x128, .f32⟩
  | 102 => ⟨S128x128, .f32⟩
  | 103 => ⟨S50000x128, .f32⟩
  | 104 => ⟨S_, .i32⟩
  | 105 => ⟨S1650000, .i32⟩
  | 106 => ⟨S1650000, .i1⟩
  | 107 => ⟨S_, .i32⟩
  | 108 => ⟨S1650000, .i32⟩
  | 109 => ⟨S1650000, .i32⟩
  | 110 => ⟨S1650000, .i32⟩
  | 111 => ⟨S1650000x1, .i32⟩
  | 112 => ⟨S1650000x128, .f32⟩
  | 113 => ⟨S1650000x128, .f32⟩
  | 114 => ⟨S1650000x128, .f32⟩
  | 115 => ⟨S_, .f32⟩
  | 116 => ⟨S50000x128, .f32⟩
  | 117 => ⟨S1650000x1, .i32⟩
  | 118 => ⟨S50000x128, .f32⟩
  | 119 => ⟨S1x128, .f32⟩
  | 120 => ⟨S128, .f32⟩
  | 121 => ⟨S1x128, .f32⟩
  | 122 => ⟨S50000x128, .f32⟩
  | 123 => ⟨S50000x128, .f32⟩
  | 124 => ⟨S_, .f32⟩
  | 125 => ⟨S32x128, .f32⟩
  | 126 => ⟨S50000x1, .i32⟩
  | 127 => ⟨S32x128, .f32⟩
  | _ => ⟨S50000, .f32⟩

abbrev hbmTy0_1 (i : Nat) : BufTy := match i % 128 with
  | 0 => ⟨S1x128, .f32⟩
  | 1 => ⟨S1x1, .f32⟩
  | 2 => ⟨S32x1, .f32⟩
  | _ => ⟨S50000, .f32⟩

abbrev hbmTy (i : Nat) : BufTy := match i / 128 with
  | 0 => hbmTy0_0 i
  | 1 => hbmTy0_1 i
  | _ => ⟨S50000, .f32⟩

abbrev bufTy : (tb : Table) → Fin (tcTables nBuf tb) → BufTy
  | .hbm, ⟨i, _⟩ => hbmTy i
  | .local _ .vmem, ⟨0, _⟩ => ⟨S5000x1, .f32⟩
  | .local _ .vmem, ⟨1, _⟩ => ⟨S5000x1, .f32⟩
  | .local _ .vmem, ⟨2, _⟩ => ⟨S1x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S5000x128, .f32⟩
  | .local _ .vmem, ⟨20, _⟩ => ⟨S5000x128, .f32⟩
  | .local _ .vmem, ⟨21, _⟩ => ⟨S32x128, .f32⟩
  | .local _ .vmem, ⟨22, _⟩ => ⟨S128x128, .f32⟩
  | .local _ .vmem, ⟨23, _⟩ => ⟨S1x128, .f32⟩
  | .local _ .vmem, ⟨24, _⟩ => ⟨S128x1, .f32⟩
  | .local _ .vmem, ⟨25, _⟩ => ⟨S1x1, .f32⟩
  | .local _ .vmem, ⟨26, _⟩ => ⟨S32x1, .f32⟩
  | _, _ => ⟨S50000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v17 : Ref sig .tc := ⟨.hbm, 34, rfl⟩
abbrev main_c : Ref sig .tc := ⟨.hbm, 35, rfl⟩
abbrev main_v18 : Ref sig .tc := ⟨.hbm, 36, rfl⟩
abbrev main_v19 : Ref sig .tc := ⟨.hbm, 37, rfl⟩
abbrev main_c_3 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_4 : Ref sig .tc := ⟨.hbm, 44, rfl⟩
abbrev main_v25 : Ref sig .tc := ⟨.hbm, 45, rfl⟩
abbrev main_v26 : Ref sig .tc := ⟨.hbm, 46, rfl⟩
abbrev main_c_5 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c_6 : Ref sig .tc := ⟨.hbm, 58, rfl⟩
abbrev main_v37 : Ref sig .tc := ⟨.hbm, 59, rfl⟩
abbrev main_v38 : Ref sig .tc := ⟨.hbm, 60, rfl⟩
abbrev main_c_7 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_8 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_c_9 : Ref sig .tc := ⟨.hbm, 81, rfl⟩
abbrev main_v57 : Ref sig .tc := ⟨.hbm, 82, rfl⟩
abbrev main_v58 : Ref sig .tc := ⟨.hbm, 83, rfl⟩
abbrev main_c_10 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_11 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_c_12 : Ref sig .tc := ⟨.hbm, 104, rfl⟩
abbrev main_v77 : Ref sig .tc := ⟨.hbm, 105, rfl⟩
abbrev main_v78 : Ref sig .tc := ⟨.hbm, 106, rfl⟩
abbrev main_c_13 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_cst_14 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_cst_15 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg4_0 : Ref sig .tc := ⟨.vmem, 25, rfl⟩
abbrev cc4_stg5_0 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem1_0 : DmaSem sig := 22
abbrev cc4_sem2_0 : DmaSem sig := 23
abbrev cc4_sem3_0 : DmaSem sig := 24
abbrev cc4_sem4_0 : DmaSem sig := 25
abbrev cc4_sem5_0 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S32x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S32x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

class Facts₀ : Prop where
  shapeCasts_S50000_S50000x1 : S50000.ShapeCasts S50000x1
  shapeCasts_S128_S1x128 : S128.ShapeCasts S1x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S5000x1_S5000x128 : S5000x1.Broadcasts S5000x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  slices_S3x128x128_S1x128x128_0_0_0 : S3x128x128.Slices ![0, 0, 0] S1x128x128
  shapeCasts_S1x128x128_S128x128 : S1x128x128.ShapeCasts S128x128
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S32x128 : S_.BroadcastsInDim S32x128 (![] : Fin 0 → Fin S32x128.rank)
  bcast_S50000_S50000x1_0 : S50000.BroadcastsInDim S50000x1 (![0] : Fin 1 → Fin S50000x1.rank)
  shapeCasts_S1_S1x1 : S1.ShapeCasts S1x1
  inb_S32x128_S32x128_0_0 : ∀ a, (![0, 0] : Fin 2 → Nat) a + S32x128.size a ≤ S32x128.size a
  h_S32x128 : 0 < S32x128.numel
  shapeCasts_S32x128_S32x128 : S32x128.ShapeCasts S32x128
  broadcasts_S1x128_S32x128 : S1x128.Broadcasts S32x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S32x1 : S1x1.Broadcasts S32x1
  inb_S32x1_S32x1_0_0 : ∀ a, (![0, 0] : Fin 2 → Nat) a + S32x1.size a ≤ S32x1.size a
  h_S32x1 : 0 < S32x1.numel
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S5000x128_S128x128_S5000x128_1_0_0_1_n_n_wf : DotDims.WF S5000x128 S128x128 S5000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  scatter_S32x128_S50000x1_S50000x128_1_0_0_1_wf : ScatterDims.WF S32x128 S50000x1 S50000x128 [1] [0] [0] 1
  dot_S32x128_S128x128_S32x128_1_0_0_1_n_n_wf : DotDims.WF S32x128 S128x128 S32x128 [1] [0] [0] [1] [] []
  dot_S32x128_S128x1_S32x1_1_0_0_1_n_n_wf : DotDims.WF S32x128 S128x1 S32x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x1.size a ≤ S50000x1.size a
  hwx0_0 : ∀ i : grid0.Coords, EltTy.bits .f32 = 32 ∨ (Rect.block (s := S50000x1) S5000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S32x128.size a ≤ S32x128.size a
  hwx4_0 : ∀ i : grid4.Coords, EltTy.bits .f32 = 32 ∨ (Rect.block (s := S32x128) S32x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x1.size a ≤ S128x1.size a
  hwx4_3 : ∀ i : grid4.Coords, EltTy.bits .f32 = 32 ∨ (Rect.block (s := S128x1) S128x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x1.size a ≤ S1x1.size a
  hwx4_4 : ∀ i : grid4.Coords, EltTy.bits .f32 = 32 ∨ (Rect.block (s := S1x1) S1x1.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S32x1.size a ≤ S32x1.size a
  hwx4_5 : ∀ i : grid4.Coords, EltTy.bits .f32 = 32 ∨ (Rect.block (s := S32x1) S32x1.size (cc4_transform_5 i) (hinb4_5 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def scatter_S32x128_S50000x1_S50000x128_1_0_0_1 : ScatterDims S32x128 S50000x1 S50000x128 where
  updateWindowDims := [1]
  insertedWindowDims := [0]
  scatterDimsToOperandDims := [0]
  indexVectorDim := 1
  wf := scatter_S32x128_S50000x1_S50000x128_1_0_0_1_wf
def dot_S32x128_S128x128_S32x128_1_0_0_1_n_n : DotDims S32x128 S128x128 S32x128 where
  lhsContracting := [1]
  rhsContracting := [0]
  lhsNonContracting := [0]
  rhsNonContracting := [1]
  lhsBatch := []
  rhsBatch := []
  wf := dot_S32x128_S128x128_S32x128_1_0_0_1_n_n_wf
def dot_S32x128_S128x1_S32x1_1_0_0_1_n_n : DotDims S32x128 S128x1 S32x1 where
  lhsContracting := [1]
  rhsContracting := [0]
  lhsNonContracting := [0]
  rhsNonContracting := [1]
  lhsBatch := []
  rhsBatch := []
  wf := dot_S32x128_S128x1_S32x1_1_0_0_1_n_n_wf

abbrev win0_0 : Pipeline.Window sig grid0 :=
  Pipeline.Window.ofSpec (Memref.whole main_v0) S5000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v2) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v36) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v53) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v55) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v56) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v73) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v75) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v76) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v96) S32x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v97) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg9) S128x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v98) S1x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v99) S32x1.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000 : Shape := ⟨1, ![50000]⟩
abbrev S2x1600000 : Shape := ⟨2, ![2, 1600000]⟩
abbrev S1x128 : Shape := ⟨2, ![1, 128]⟩
abbrev S128 : Shape := ⟨1, ![128]⟩
abbrev S3x128x128 : Shape := ⟨3, ![3, 128, 128]⟩
abbrev S3x128 : Shape := ⟨2, ![3, 128]⟩
abbrev S128x128 : Shape := ⟨2, ![128, 128]⟩
abbrev S128x1 : Shape := ⟨2, ![128, 1]⟩
abbrev S1 : Shape := ⟨1, ![1]⟩
abbrev S50000x1 : Shape := ⟨2, ![50000, 1]⟩
abbrev S50000x128 : Shape := ⟨2, ![50000, 128]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S1x128x128 : Shape := ⟨3, ![1, 128, 128]⟩
abbrev S1650000x128 : Shape := ⟨2, ![1650000, 128]⟩
abbrev S32x128 : Shape := ⟨2, ![32, 128]⟩
abbrev S32x1 : Shape := ⟨2, ![32, 1]⟩
abbrev S1x1 : Shape := ⟨2, ![1, 1]⟩

abbrev nBuf : Space → Nat
  | .hbm => 139
  | .vmem => 0
  | .smem => 0
  | _ => 0

abbrev hbmTy0_0 (i : Nat) : BufTy := match i % 128 with
  | 0 => ⟨S50000, .f32⟩
  | 1 => ⟨S2x1600000, .i32⟩
  | 2 => ⟨S50000, .i32⟩
  | 3 => ⟨S1x128, .f32⟩
  | 4 => ⟨S128, .f32⟩
  | 5 => ⟨S3x128x128, .f32⟩
  | 6 => ⟨S3x128, .f32⟩
  | 7 => ⟨S128x128, .f32⟩
  | 8 => ⟨S128, .f32⟩
  | 9 => ⟨S128x1, .f32⟩
  | 10 => ⟨S1, .f32⟩
  | 11 => ⟨S50000x1, .f32⟩
  | 12 => ⟨S50000x128, .f32⟩
  | 13 => ⟨S1x128, .f32⟩
  | 14 => ⟨S50000x128, .f32⟩
  | 15 => ⟨S50000x128, .f32⟩
  | 16 => ⟨S50000, .i32⟩
  | 17 => ⟨S1x1600000, .i32⟩
  | 18 => ⟨S1600000, .i32⟩
  | 19 => ⟨S1650000, .i32⟩
  | 20 => ⟨S1x1600000, .i32⟩
  | 21 => ⟨S1600000, .i32⟩
  | 22 => ⟨S1650000, .i32⟩
  | 23 => ⟨S_, .f32⟩
  | 24 => ⟨S1650000, .f32⟩
  | 25 => ⟨S_, .f32⟩
  | 26 => ⟨S50000, .f32⟩
  | 27 => ⟨S1650000x1, .i32⟩
  | 28 => ⟨S50000, .f32⟩
  | 29 => ⟨S_, .f32⟩
  | 30 => ⟨S50000, .f32⟩
  | 31 => ⟨S50000, .i1⟩
  | 32 => ⟨S50000, .f32⟩
  | 33 => ⟨S_, .f32⟩
  | 34 => ⟨S_, .f32⟩
  | 35 => ⟨S50000, .f32⟩
  | 36 => ⟨S50000, .f32⟩
  | 37 => ⟨S_, .i32⟩
  | 38 => ⟨S1650000, .i32⟩
  | 39 => ⟨S1650000, .i1⟩
  | 40 => ⟨S_, .i32⟩
  | 41 => ⟨S1650000, .i32⟩
  | 42 => ⟨S1650000, .i32⟩
  | 43 => ⟨S1650000, .i32⟩
  | 44 => ⟨S1650000x1, .i32⟩
  | 45 => ⟨S1650000, .f32⟩
  | 46 => ⟨S_, .i32⟩
  | 47 => ⟨S1650000, .i32⟩
  | 48 => ⟨S1650000, .i1⟩
  | 49 => ⟨S_, .i32⟩
  | 50 => ⟨S1650000, .i32⟩
  | 51 => ⟨S1650000, .i32⟩
  | 52 => ⟨S1650000, .i32⟩
  | 53 => ⟨S1650000x1, .i32⟩
  | 54 => ⟨S1650000, .f32⟩
  | 55 => ⟨S1650000, .f32⟩
  | 56 => ⟨S1650000x1, .f32⟩
  | 57 => ⟨S1x128x128, .f32⟩
  | 58 => ⟨S128x128, .f32⟩
  | 59 => ⟨S50000x128, .f32⟩
  | 60 => ⟨S_, .i32⟩
  | 61 => ⟨S1650000, .i32⟩
  | 62 => ⟨S1650000, .i1⟩
  | 63 => ⟨S_, .i32⟩
  | 64 => ⟨S1650000, .i32⟩
  | 65 => ⟨S1650000, .i32⟩
  | 66 => ⟨S1650000, .i32⟩
  | 67 => ⟨S1650000x1, .i32⟩
  | 68 => ⟨S1650000x128, .f32⟩
  | 69 => ⟨S1650000x128, .f32⟩
  | 70 => ⟨S1650000x128, .f32⟩
  | 71 => ⟨S_, .f32⟩
  | 72 => ⟨S50000x128, .f32⟩
  | 73 => ⟨S1650000x1, .i32⟩
  | 74 => ⟨S50000x128, .f32⟩
  | 75 => ⟨S1x128, .f32⟩
  | 76 => ⟨S128, .f32⟩
  | 77 => ⟨S1x128, .f32⟩
  | 78 => ⟨S50000x128, .f32⟩
  | 79 => ⟨S50000x128, .f32⟩
  | 80 => ⟨S1x128x128, .f32⟩
  | 81 => ⟨S128x128, .f32⟩
  | 82 => ⟨S50000x128, .f32⟩
  | 83 => ⟨S_, .i32⟩
  | 84 => ⟨S1650000, .i32⟩
  | 85 => ⟨S1650000, .i1⟩
  | 86 => ⟨S_, .i32⟩
  | 87 => ⟨S1650000, .i32⟩
  | 88 => ⟨S1650000, .i32⟩
  | 89 => ⟨S1650000, .i32⟩
  | 90 => ⟨S1650000x1, .i32⟩
  | 91 => ⟨S1650000x128, .f32⟩
  | 92 => ⟨S1650000x128, .f32⟩
  | 93 => ⟨S1650000x128, .f32⟩
  | 94 => ⟨S_, .f32⟩
  | 95 => ⟨S50000x128, .f32⟩
  | 96 => ⟨S1650000x1, .i32⟩
  | 97 => ⟨S50000x128, .f32⟩
  | 98 => ⟨S1x128, .f32⟩
  | 99 => ⟨S128, .f32⟩
  | 100 => ⟨S1x128, .f32⟩
  | 101 => ⟨S50000x128, .f32⟩
  | 102 => ⟨S50000x128, .f32⟩
  | 103 => ⟨S1x128x128, .f32⟩
  | 104 => ⟨S128x128, .f32⟩
  | 105 => ⟨S50000x128, .f32⟩
  | 106 => ⟨S_, .i32⟩
  | 107 => ⟨S1650000, .i32⟩
  | 108 => ⟨S1650000, .i1⟩
  | 109 => ⟨S_, .i32⟩
  | 110 => ⟨S1650000, .i32⟩
  | 111 => ⟨S1650000, .i32⟩
  | 112 => ⟨S1650000, .i32⟩
  | 113 => ⟨S1650000x1, .i32⟩
  | 114 => ⟨S1650000x128, .f32⟩
  | 115 => ⟨S1650000x128, .f32⟩
  | 116 => ⟨S1650000x128, .f32⟩
  | 117 => ⟨S_, .f32⟩
  | 118 => ⟨S50000x128, .f32⟩
  | 119 => ⟨S1650000x1, .i32⟩
  | 120 => ⟨S50000x128, .f32⟩
  | 121 => ⟨S1x128, .f32⟩
  | 122 => ⟨S128, .f32⟩
  | 123 => ⟨S1x128, .f32⟩
  | 124 => ⟨S50000x128, .f32⟩
  | 125 => ⟨S50000x128, .f32⟩
  | 126 => ⟨S_, .f32⟩
  | 127 => ⟨S32x128, .f32⟩
  | _ => ⟨S50000, .f32⟩

abbrev hbmTy0_1 (i : Nat) : BufTy := match i % 128 with
  | 0 => ⟨S50000x1, .i32⟩
  | 1 => ⟨S32x128, .f32⟩
  | 2 => ⟨S32x128, .f32⟩
  | 3 => ⟨S1x128, .f32⟩
  | 4 => ⟨S32x128, .f32⟩
  | 5 => ⟨S32x128, .f32⟩
  | 6 => ⟨S32x128, .f32⟩
  | 7 => ⟨S32x1, .f32⟩
  | 8 => ⟨S1x1, .f32⟩
  | 9 => ⟨S32x1, .f32⟩
  | 10 => ⟨S32x1, .f32⟩
  | _ => ⟨S50000, .f32⟩

abbrev hbmTy (i : Nat) : BufTy := match i / 128 with
  | 0 => hbmTy0_0 i
  | 1 => hbmTy0_1 i
  | _ => ⟨S50000, .f32⟩

abbrev bufTy : (tb : Table) → Fin (tcTables nBuf tb) → BufTy
  | .hbm, ⟨i, _⟩ => hbmTy i
  | _, _ => ⟨S50000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_v19 : Ref sig .tc := ⟨.hbm, 36, rfl⟩
abbrev main_c : Ref sig .tc := ⟨.hbm, 37, rfl⟩
abbrev main_v20 : Ref sig .tc := ⟨.hbm, 38, rfl⟩
abbrev main_v21 : Ref sig .tc := ⟨.hbm, 39, rfl⟩
abbrev main_c_3 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_4 : Ref sig .tc := ⟨.hbm, 46, rfl⟩
abbrev main_v27 : Ref sig .tc := ⟨.hbm, 47, rfl⟩
abbrev main_v28 : Ref sig .tc := ⟨.hbm, 48, rfl⟩
abbrev main_c_5 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_c_6 : Ref sig .tc := ⟨.hbm, 60, rfl⟩
abbrev main_v39 : Ref sig .tc := ⟨.hbm, 61, rfl⟩
abbrev main_v40 : Ref sig .tc := ⟨.hbm, 62, rfl⟩
abbrev main_c_7 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_8 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_c_9 : Ref sig .tc := ⟨.hbm, 83, rfl⟩
abbrev main_v59 : Ref sig .tc := ⟨.hbm, 84, rfl⟩
abbrev main_v60 : Ref sig .tc := ⟨.hbm, 85, rfl⟩
abbrev main_c_10 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_11 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_c_12 : Ref sig .tc := ⟨.hbm, 106, rfl⟩
abbrev main_v79 : Ref sig .tc := ⟨.hbm, 107, rfl⟩
abbrev main_v80 : Ref sig .tc := ⟨.hbm, 108, rfl⟩
abbrev main_c_13 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_cst_14 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_cst_15 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩

abbrev nD : Nat := 1
abbrev τ : Topo := Topo.v7x

variable {F : FTy → Type} [FloatOps F]

class Facts₀ : Prop where
  shapeCasts_S50000_S50000x1 : S50000.ShapeCasts S50000x1
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  slices_S3x128x128_S1x128x128_0_0_0 : S3x128x128.Slices ![0, 0, 0] S1x128x128
  shapeCasts_S1x128x128_S128x128 : S1x128x128.ShapeCasts S128x128
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  slices_S3x128_S1x128_0_0 : S3x128.Slices ![0, 0] S1x128
  shapeCasts_S1x128_S128 : S1x128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S32x128 : S_.BroadcastsInDim S32x128 (![] : Fin 0 → Fin S32x128.rank)
  bcast_S50000_S50000x1_0 : S50000.BroadcastsInDim S50000x1 (![0] : Fin 1 → Fin S50000x1.rank)
  bcast_S1x128_S32x128_0_1 : S1x128.BroadcastsInDim S32x128 (![0, 1] : Fin 2 → Fin S32x128.rank)
  bcast_S1_S1x1_1 : S1.BroadcastsInDim S1x1 (![1] : Fin 1 → Fin S1x1.rank)
  bcast_S1x1_S32x1_0_1 : S1x1.BroadcastsInDim S32x1 (![0, 1] : Fin 2 → Fin S32x1.rank)
  dot_S50000x1_S1x128_S50000x128_1_0_0_1_n_n_wf : DotDims.WF S50000x1 S1x128 S50000x128 [1] [0] [0] [1] [] []
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S50000x128_S128x128_S50000x128_1_0_0_1_n_n_wf : DotDims.WF S50000x128 S128x128 S50000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  scatter_S32x128_S50000x1_S50000x128_1_0_0_1_wf : ScatterDims.WF S32x128 S50000x1 S50000x128 [1] [0] [0] 1
  dot_S32x128_S128x128_S32x128_1_0_0_1_n_n_wf : DotDims.WF S32x128 S128x128 S32x128 [1] [0] [0] [1] [] []
  dot_S32x128_S128x1_S32x1_1_0_0_1_n_n_wf : DotDims.WF S32x128 S128x1 S32x1 [1] [0] [0] [1] [] []

variable [Facts₀]

def dot_S50000x1_S1x128_S50000x128_1_0_0_1_n_n : DotDims S50000x1 S1x128 S50000x128 where
  lhsContracting := [1]
  rhsContracting := [0]
  lhsNonContracting := [0]
  rhsNonContracting := [1]
  lhsBatch := []
  rhsBatch := []
  wf := dot_S50000x1_S1x128_S50000x128_1_0_0_1_n_n_wf
def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def scatter_S32x128_S50000x1_S50000x128_1_0_0_1 : ScatterDims S32x128 S50000x1 S50000x128 where
  updateWindowDims := [1]
  insertedWindowDims := [0]
  scatterDimsToOperandDims := [0]
  indexVectorDim := 1
  wf := scatter_S32x128_S50000x1_S50000x128_1_0_0_1_wf
def dot_S32x128_S128x128_S32x128_1_0_0_1_n_n : DotDims S32x128 S128x128 S32x128 where
  lhsContracting := [1]
  rhsContracting := [0]
  lhsNonContracting := [0]
  rhsNonContracting := [1]
  lhsBatch := []
  rhsBatch := []
  wf := dot_S32x128_S128x128_S32x128_1_0_0_1_n_n_wf
def dot_S32x128_S128x1_S32x1_1_0_0_1_n_n : DotDims S32x128 S128x1 S32x1 where
  lhsContracting := [1]
  rhsContracting := [0]
  lhsNonContracting := [0]
  rhsNonContracting := [1]
  lhsBatch := []
  rhsBatch := []
  wf := dot_S32x128_S128x1_S32x1_1_0_0_1_n_n_wf

class Facts : Prop extends Facts₀ where

variable [Facts]
-- ==== Proof.KRun.lean ====
/-
  The idealized kernel's run with its result kept. The program is five pipelined regions among stretches of host
  operations; the buffer contents at each boundary are a fold from the launch memory (a stretch applies its operations,
  a region replaces its output array by what its write-backs leave). Every weakly fair execution terminates without a
  fault, and at the end the result buffer holds the last boundary's contents at that buffer, the arguments their launch
  contents. This is the run behind the frame claim, with one more buffer read out of the same final thread state.
-/
import proofs.«127445_j34351148433711_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel terminates, nothing faulting; the result buffer ends at the last
    boundary's contents and every argument array as launched. -/
theorem run_result : θ_run defs (onTc (τ := τ) (main (F := F))) ⟨m, fun _ => 0, ρ⟩ (fun r => ∀ c : Dev nD,
      r.2.mem ((c.tc : Thread nD τ).loc main_v99) = W12 m ρ c (Proc.devRef .tc main_v99)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v99 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c)⟩)

end Cert.KernelIdeal.KRun

end
-- ==== Proof.Spec.lean ====
/-
  The arithmetic both programs share, read at an index over the extended reals.
  A product of an [M, K] array with a [K, N] array, whether the host's `dot_general` or a kernel's `matmul` into a zero
  accumulator, has at (r, c) the sum over k of the entries (r, k) and (k, c): `lx i k` is the index (row of i, k), `rx i k`
  the index (k, column of i). The three functions the kernel's regions compute are then written as the host's own
  operations on whole arrays — the embedding x·w + b with a contracted axis of length one, the node-feature product h·W,
  and the readout tanh(p·W1 + b1)·W2 + b2 — and each is read at an index as the textbook formula.
-/
import proofs.«127445_j34351148433711_1_alg».proof.Proof.Gen.KernelIdeal
import proofs.«127445_j34351148433711_1_alg».proof.Proof.Gen.ReferenceIdeal
import Idealize.ShloMosaic.PureOps.Ideal
import Idealize.ShloMosaic.PureOps.Ideal.Laws
import Idealize.ShloMosaic.Lib.ValueIdx
import Idealize.ShloMosaic.Lib.Pipeline.Value

noncomputable section

namespace Cert.Spec

open Idealize.ShloMosaic

/-- The index (row of `i`, `k`) of an [M, K] array, for `i` an index of an [M, N] array. -/
abbrev lx {M N K : Nat} (i : (⟨2, ![M, N]⟩ : Shape).Idx) (k : Fin K) : (⟨2, ![M, K]⟩ : Shape).Idx := fun a => match a with
  | ⟨0, _⟩ => ⟨(i 0).val, (i 0).isLt⟩
  | ⟨1, _⟩ => ⟨k.val, k.isLt⟩
/-- The index (`k`, column of `i`) of a [K, N] array, for `i` an index of an [M, N] array. -/
abbrev rx {M N K : Nat} (i : (⟨2, ![M, N]⟩ : Shape).Idx) (k : Fin K) : (⟨2, ![K, N]⟩ : Shape).Idx := fun a => match a with
  | ⟨0, _⟩ => ⟨k.val, k.isLt⟩
  | ⟨1, _⟩ => ⟨(i 1).val, (i 1).isLt⟩

/-! ## Products read at an index -/

theorem dgE_l0 (i : Cert.ReferenceIdeal.S50000x128.Idx) (q : Cert.ReferenceIdeal.dot_S50000x1_S1x128_S50000x128_1_0_0_1_n_n.contr.Idx) : (Cert.ReferenceIdeal.dot_S50000x1_S1x128_S50000x128_1_0_0_1_n_n.lhsIdx i q 0).val = (i 0).val := by
  unfold DotDims.lhsIdx
  rw [dif_neg (show ¬(0 : Fin Cert.ReferenceIdeal.S50000x1.rank) ∈ Cert.ReferenceIdeal.dot_S50000x1_S1x128_S50000x128_1_0_0_1_n_n.lhsBatch by decide), dif_pos (show (0 : Fin Cert.ReferenceIdeal.S50000x1.rank) ∈ Cert.ReferenceIdeal.dot_S50000x1_S1x128_S50000x128_1_0_0_1_n_n.lhsNonContracting by decide)]
  rfl
theorem dgE_r1 (i : Cert.ReferenceIdeal.S50000x128.Idx) (q : Cert.ReferenceIdeal.dot_S50000x1_S1x128_S50000x128_1_0_0_1_n_n.contr.Idx) : (Cert.ReferenceIdeal.dot_S50000x1_S1x128_S50000x128_1_0_0_1_n_n.rhsIdx i q 1).val = (i 1).val := by
  unfold DotDims.rhsIdx
  rw [dif_neg (show ¬(1 : Fin Cert.ReferenceIdeal.S1x128.rank) ∈ Cert.ReferenceIdeal.dot_S50000x1_S1x128_S50000x128_1_0_0_1_n_n.rhsBatch by decide), dif_pos (show (1 : Fin Cert.ReferenceIdeal.S1x128.rank) ∈ Cert.ReferenceIdeal.dot_S50000x1_S1x128_S50000x128_1_0_0_1_n_n.rhsNonContracting by decide)]
  rfl
/-- One contracted axis of length 1: the entry at `i` is the sum over `k` of (row of `i`, `k`) times (`k`, column of `i`). -/
theorem dgE (l : FVec Ideal Cert.ReferenceIdeal.S50000x1 .f32) (r : FVec Ideal Cert.ReferenceIdeal.S1x128 .f32) (i : Cert.ReferenceIdeal.S50000x128.Idx) :
    Host.dotGeneral (F := Ideal) Cert.ReferenceIdeal.dot_S50000x1_S1x128_S50000x128_1_0_0_1_n_n none l r i = ∑ k : Fin 1, l (lx i k) * r (rx i k) := by
  simp only [Host.dotGeneral]
  rw [Ideal.dotGeneral_apply, ← Equiv.sum_comp (ValueIdx.contrEquiv1 Cert.ReferenceIdeal.dot_S50000x1_S1x128_S50000x128_1_0_0_1_n_n 1 rfl rfl).symm]
  refine Finset.sum_congr rfl fun k _ => ?_
  have hk := ValueIdx.contrEquiv1_symm_val Cert.ReferenceIdeal.dot_S50000x1_S1x128_S50000x128_1_0_0_1_n_n 1 rfl rfl k
  have el : Cert.ReferenceIdeal.dot_S50000x1_S1x128_S50000x128_1_0_0_1_n_n.lhsIdx i ((ValueIdx.contrEquiv1 Cert.ReferenceIdeal.dot_S50000x1_S1x128_S50000x128_1_0_0_1_n_n 1 rfl rfl).symm k) = lx i k := funext fun a => Fin.ext (by
    match a with
    | ⟨0, _⟩ => exact dgE_l0 _ _
    | ⟨1, _⟩ => exact (Cert.ReferenceIdeal.dot_S50000x1_S1x128_S50000x128_1_0_0_1_n_n.lhsIdx_val_of_single rfl i _).trans hk)
  have er : Cert.ReferenceIdeal.dot_S50000x1_S1x128_S50000x128_1_0_0_1_n_n.rhsIdx i ((ValueIdx.contrEquiv1 Cert.ReferenceIdeal.dot_S50000x1_S1x128_S50000x128_1_0_0_1_n_n 1 rfl rfl).symm k) = rx i k := funext fun a => Fin.ext (by
    match a with
    | ⟨0, _⟩ => exact (Cert.ReferenceIdeal.dot_S50000x1_S1x128_S50000x128_1_0_0_1_n_n.rhsIdx_val_of_single rfl i _).trans hk
    | ⟨1, _⟩ => exact dgE_r1 _ _)
  rw [el, er]

theorem dgM_l0 (i : Cert.ReferenceIdeal.S50000x128.Idx) (q : Cert.ReferenceIdeal.dot_S50000x128_S128x128_S50000x128_1_0_0_1_n_n.contr.Idx) : (Cert.ReferenceIdeal.dot_S50000x128_S128x128_S50000x128_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x128_S50000x128_1_0_0_1_n_n.lhsBatch by decide), dif_pos (show (0 : Fin Cert.ReferenceIdeal.S50000x128.rank) ∈ Cert.ReferenceIdeal.dot_S50000x128_S128x128_S50000x128_1_0_0_1_n_n.lhsNonContracting by decide)]
  rfl
theorem dgM_r1 (i : Cert.ReferenceIdeal.S50000x128.Idx) (q : Cert.ReferenceIdeal.dot_S50000x128_S128x128_S50000x128_1_0_0_1_n_n.contr.Idx) : (Cert.ReferenceIdeal.dot_S50000x128_S128x128_S50000x128_1_0_0_1_n_n.rhsIdx i q 1).val = (i 1).val := by
  unfold DotDims.rhsIdx
  rw [dif_neg (show ¬(1 : Fin Cert.ReferenceIdeal.S128x128.rank) ∈ Cert.ReferenceIdeal.dot_S50000x128_S128x128_S50000x128_1_0_0_1_n_n.rhsBatch by decide), dif_pos (show (1 : Fin Cert.ReferenceIdeal.S128x128.rank) ∈ Cert.ReferenceIdeal.dot_S50000x128_S128x128_S50000x128_1_0_0_1_n_n.rhsNonContracting by decide)]
  rfl
/-- One contracted axis of length 128: the entry at `i` is the sum over `k` of (row of `i`, `k`) times (`k`, column of `i`). -/
theorem dgM (l : FVec Ideal Cert.ReferenceIdeal.S50000x128 .f32) (r : FVec Ideal Cert.ReferenceIdeal.S128x128 .f32) (i : Cert.ReferenceIdeal.S50000x128.Idx) :
    Host.dotGeneral (F := Ideal) Cert.ReferenceIdeal.dot_S50000x128_S128x128_S50000x128_1_0_0_1_n_n none l r i = ∑ k : Fin 128, l (lx i k) * r (rx i k) := by
  simp only [Host.dotGeneral]
  rw [Ideal.dotGeneral_apply, ← Equiv.sum_comp (ValueIdx.contrEquiv1 Cert.ReferenceIdeal.dot_S50000x128_S128x128_S50000x128_1_0_0_1_n_n 128 rfl rfl).symm]
  refine Finset.sum_congr rfl fun k _ => ?_
  have hk := ValueIdx.contrEquiv1_symm_val Cert.ReferenceIdeal.dot_S50000x128_S128x128_S50000x128_1_0_0_1_n_n 128 rfl rfl k
  have el : Cert.ReferenceIdeal.dot_S50000x128_S128x128_S50000x128_1_0_0_1_n_n.lhsIdx i ((ValueIdx.contrEquiv1 Cert.ReferenceIdeal.dot_S50000x128_S128x128_S50000x128_1_0_0_1_n_n 128 rfl rfl).symm k) = lx i k := funext fun a => Fin.ext (by
    match a with
    | ⟨0, _⟩ => exact dgM_l0 _ _
    | ⟨1, _⟩ => exact (Cert.ReferenceIdeal.dot_S50000x128_S128x128_S50000x128_1_0_0_1_n_n.lhsIdx_val_of_single rfl i _).trans hk)
  have er : Cert.ReferenceIdeal.dot_S50000x128_S128x128_S50000x128_1_0_0_1_n_n.rhsIdx i ((ValueIdx.contrEquiv1 Cert.ReferenceIdeal.dot_S50000x128_S128x128_S50000x128_1_0_0_1_n_n 128 rfl rfl).symm k) = rx i k := funext fun a => Fin.ext (by
    match a with
    | ⟨0, _⟩ => exact (Cert.ReferenceIdeal.dot_S50000x128_S128x128_S50000x128_1_0_0_1_n_n.rhsIdx_val_of_single rfl i _).trans hk
    | ⟨1, _⟩ => exact dgM_r1 _ _)
  rw [el, er]

theorem dgR1_l0 (i : Cert.ReferenceIdeal.S32x128.Idx) (q : Cert.ReferenceIdeal.dot_S32x128_S128x128_S32x128_1_0_0_1_n_n.contr.Idx) : (Cert.ReferenceIdeal.dot_S32x128_S128x128_S32x128_1_0_0_1_n_n.lhsIdx i q 0).val = (i 0).val := by
  unfold DotDims.lhsIdx
  rw [dif_neg (show ¬(0 : Fin Cert.ReferenceIdeal.S32x128.rank) ∈ Cert.ReferenceIdeal.dot_S32x128_S128x128_S32x128_1_0_0_1_n_n.lhsBatch by decide), dif_pos (show (0 : Fin Cert.ReferenceIdeal.S32x128.rank) ∈ Cert.ReferenceIdeal.dot_S32x128_S128x128_S32x128_1_0_0_1_n_n.lhsNonContracting by decide)]
  rfl
theorem dgR1_r1 (i : Cert.ReferenceIdeal.S32x128.Idx) (q : Cert.ReferenceIdeal.dot_S32x128_S128x128_S32x128_1_0_0_1_n_n.contr.Idx) : (Cert.ReferenceIdeal.dot_S32x128_S128x128_S32x128_1_0_0_1_n_n.rhsIdx i q 1).val = (i 1).val := by
  unfold DotDims.rhsIdx
  rw [dif_neg (show ¬(1 : Fin Cert.ReferenceIdeal.S128x128.rank) ∈ Cert.ReferenceIdeal.dot_S32x128_S128x128_S32x128_1_0_0_1_n_n.rhsBatch by decide), dif_pos (show (1 : Fin Cert.ReferenceIdeal.S128x128.rank) ∈ Cert.ReferenceIdeal.dot_S32x128_S128x128_S32x128_1_0_0_1_n_n.rhsNonContracting by decide)]
  rfl
/-- One contracted axis of length 128: the entry at `i` is the sum over `k` of (row of `i`, `k`) times (`k`, column of `i`). -/
theorem dgR1 (l : FVec Ideal Cert.ReferenceIdeal.S32x128 .f32) (r : FVec Ideal Cert.ReferenceIdeal.S128x128 .f32) (i : Cert.ReferenceIdeal.S32x128.Idx) :
    Host.dotGeneral (F := Ideal) Cert.ReferenceIdeal.dot_S32x128_S128x128_S32x128_1_0_0_1_n_n none l r i = ∑ k : Fin 128, l (lx i k) * r (rx i k) := by
  simp only [Host.dotGeneral]
  rw [Ideal.dotGeneral_apply, ← Equiv.sum_comp (ValueIdx.contrEquiv1 Cert.ReferenceIdeal.dot_S32x128_S128x128_S32x128_1_0_0_1_n_n 128 rfl rfl).symm]
  refine Finset.sum_congr rfl fun k _ => ?_
  have hk := ValueIdx.contrEquiv1_symm_val Cert.ReferenceIdeal.dot_S32x128_S128x128_S32x128_1_0_0_1_n_n 128 rfl rfl k
  have el : Cert.ReferenceIdeal.dot_S32x128_S128x128_S32x128_1_0_0_1_n_n.lhsIdx i ((ValueIdx.contrEquiv1 Cert.ReferenceIdeal.dot_S32x128_S128x128_S32x128_1_0_0_1_n_n 128 rfl rfl).symm k) = lx i k := funext fun a => Fin.ext (by
    match a with
    | ⟨0, _⟩ => exact dgR1_l0 _ _
    | ⟨1, _⟩ => exact (Cert.ReferenceIdeal.dot_S32x128_S128x128_S32x128_1_0_0_1_n_n.lhsIdx_val_of_single rfl i _).trans hk)
  have er : Cert.ReferenceIdeal.dot_S32x128_S128x128_S32x128_1_0_0_1_n_n.rhsIdx i ((ValueIdx.contrEquiv1 Cert.ReferenceIdeal.dot_S32x128_S128x128_S32x128_1_0_0_1_n_n 128 rfl rfl).symm k) = rx i k := funext fun a => Fin.ext (by
    match a with
    | ⟨0, _⟩ => exact (Cert.ReferenceIdeal.dot_S32x128_S128x128_S32x128_1_0_0_1_n_n.rhsIdx_val_of_single rfl i _).trans hk
    | ⟨1, _⟩ => exact dgR1_r1 _ _)
  rw [el, er]

theorem dgR2_l0 (i : Cert.ReferenceIdeal.S32x1.Idx) (q : Cert.ReferenceIdeal.dot_S32x128_S128x1_S32x1_1_0_0_1_n_n.contr.Idx) : (Cert.ReferenceIdeal.dot_S32x128_S128x1_S32x1_1_0_0_1_n_n.lhsIdx i q 0).val = (i 0).val := by
  unfold DotDims.lhsIdx
  rw [dif_neg (show ¬(0 : Fin Cert.ReferenceIdeal.S32x128.rank) ∈ Cert.ReferenceIdeal.dot_S32x128_S128x1_S32x1_1_0_0_1_n_n.lhsBatch by decide), dif_pos (show (0 : Fin Cert.ReferenceIdeal.S32x128.rank) ∈ Cert.ReferenceIdeal.dot_S32x128_S128x1_S32x1_1_0_0_1_n_n.lhsNonContracting by decide)]
  rfl
theorem dgR2_r1 (i : Cert.ReferenceIdeal.S32x1.Idx) (q : Cert.ReferenceIdeal.dot_S32x128_S128x1_S32x1_1_0_0_1_n_n.contr.Idx) : (Cert.ReferenceIdeal.dot_S32x128_S128x1_S32x1_1_0_0_1_n_n.rhsIdx i q 1).val = (i 1).val := by
  unfold DotDims.rhsIdx
  rw [dif_neg (show ¬(1 : Fin Cert.ReferenceIdeal.S128x1.rank) ∈ Cert.ReferenceIdeal.dot_S32x128_S128x1_S32x1_1_0_0_1_n_n.rhsBatch by decide), dif_pos (show (1 : Fin Cert.ReferenceIdeal.S128x1.rank) ∈ Cert.ReferenceIdeal.dot_S32x128_S128x1_S32x1_1_0_0_1_n_n.rhsNonContracting by decide)]
  rfl
/-- One contracted axis of length 128: the entry at `i` is the sum over `k` of (row of `i`, `k`) times (`k`, column of `i`). -/
theorem dgR2 (l : FVec Ideal Cert.ReferenceIdeal.S32x128 .f32) (r : FVec Ideal Cert.ReferenceIdeal.S128x1 .f32) (i : Cert.ReferenceIdeal.S32x1.Idx) :
    Host.dotGeneral (F := Ideal) Cert.ReferenceIdeal.dot_S32x128_S128x1_S32x1_1_0_0_1_n_n none l r i = ∑ k : Fin 128, l (lx i k) * r (rx i k) := by
  simp only [Host.dotGeneral]
  rw [Ideal.dotGeneral_apply, ← Equiv.sum_comp (ValueIdx.contrEquiv1 Cert.ReferenceIdeal.dot_S32x128_S128x1_S32x1_1_0_0_1_n_n 128 rfl rfl).symm]
  refine Finset.sum_congr rfl fun k _ => ?_
  have hk := ValueIdx.contrEquiv1_symm_val Cert.ReferenceIdeal.dot_S32x128_S128x1_S32x1_1_0_0_1_n_n 128 rfl rfl k
  have el : Cert.ReferenceIdeal.dot_S32x128_S128x1_S32x1_1_0_0_1_n_n.lhsIdx i ((ValueIdx.contrEquiv1 Cert.ReferenceIdeal.dot_S32x128_S128x1_S32x1_1_0_0_1_n_n 128 rfl rfl).symm k) = lx i k := funext fun a => Fin.ext (by
    match a with
    | ⟨0, _⟩ => exact dgR2_l0 _ _
    | ⟨1, _⟩ => exact (Cert.ReferenceIdeal.dot_S32x128_S128x1_S32x1_1_0_0_1_n_n.lhsIdx_val_of_single rfl i _).trans hk)
  have er : Cert.ReferenceIdeal.dot_S32x128_S128x1_S32x1_1_0_0_1_n_n.rhsIdx i ((ValueIdx.contrEquiv1 Cert.ReferenceIdeal.dot_S32x128_S128x1_S32x1_1_0_0_1_n_n 128 rfl rfl).symm k) = rx i k := funext fun a => Fin.ext (by
    match a with
    | ⟨0, _⟩ => exact (Cert.ReferenceIdeal.dot_S32x128_S128x1_S32x1_1_0_0_1_n_n.rhsIdx_val_of_single rfl i _).trans hk
    | ⟨1, _⟩ => exact dgR2_r1 _ _)
  rw [el, er]

theorem mmM_l0 (i : Cert.KernelIdeal.S5000x128.Idx) (q : Cert.KernelIdeal.dot_S5000x128_S128x128_S5000x128_1_0_0_1_n_n.contr.Idx) : (Cert.KernelIdeal.dot_S5000x128_S128x128_S5000x128_1_0_0_1_n_n.lhsIdx i q 0).val = (i 0).val := by
  unfold DotDims.lhsIdx
  rw [dif_neg (show ¬(0 : Fin Cert.KernelIdeal.S5000x128.rank) ∈ Cert.KernelIdeal.dot_S5000x128_S128x128_S5000x128_1_0_0_1_n_n.lhsBatch by decide), dif_pos (show (0 : Fin Cert.KernelIdeal.S5000x128.rank) ∈ Cert.KernelIdeal.dot_S5000x128_S128x128_S5000x128_1_0_0_1_n_n.lhsNonContracting by decide)]
  rfl
theorem mmM_r1 (i : Cert.KernelIdeal.S5000x128.Idx) (q : Cert.KernelIdeal.dot_S5000x128_S128x128_S5000x128_1_0_0_1_n_n.contr.Idx) : (Cert.KernelIdeal.dot_S5000x128_S128x128_S5000x128_1_0_0_1_n_n.rhsIdx i q 1).val = (i 1).val := by
  unfold DotDims.rhsIdx
  rw [dif_neg (show ¬(1 : Fin Cert.KernelIdeal.S128x128.rank) ∈ Cert.KernelIdeal.dot_S5000x128_S128x128_S5000x128_1_0_0_1_n_n.rhsBatch by decide), dif_pos (show (1 : Fin Cert.KernelIdeal.S128x128.rank) ∈ Cert.KernelIdeal.dot_S5000x128_S128x128_S5000x128_1_0_0_1_n_n.rhsNonContracting by decide)]
  rfl
/-- One contracted axis of length 128: the entry at `i` is the sum over `k` of (row of `i`, `k`) times (`k`, column of `i`). -/
theorem mmM (l : FVec Ideal Cert.KernelIdeal.S5000x128 .bf16) (r : FVec Ideal Cert.KernelIdeal.S128x128 .bf16) (i : Cert.KernelIdeal.S5000x128.Idx) :
    matmul (F := Ideal) Cert.KernelIdeal.dot_S5000x128_S128x128_S5000x128_1_0_0_1_n_n none l r (constant Cert.KernelIdeal.S5000x128 .f32 0x00000000#32) i = ∑ k : Fin 128, l (lx i k) * r (rx i k) := by
  simp only [matmul]
  rw [Ideal.matmul_constant_zero_apply, ← Equiv.sum_comp (ValueIdx.contrEquiv1 Cert.KernelIdeal.dot_S5000x128_S128x128_S5000x128_1_0_0_1_n_n 128 rfl rfl).symm]
  refine Finset.sum_congr rfl fun k _ => ?_
  have hk := ValueIdx.contrEquiv1_symm_val Cert.KernelIdeal.dot_S5000x128_S128x128_S5000x128_1_0_0_1_n_n 128 rfl rfl k
  have el : Cert.KernelIdeal.dot_S5000x128_S128x128_S5000x128_1_0_0_1_n_n.lhsIdx i ((ValueIdx.contrEquiv1 Cert.KernelIdeal.dot_S5000x128_S128x128_S5000x128_1_0_0_1_n_n 128 rfl rfl).symm k) = lx i k := funext fun a => Fin.ext (by
    match a with
    | ⟨0, _⟩ => exact mmM_l0 _ _
    | ⟨1, _⟩ => exact (Cert.KernelIdeal.dot_S5000x128_S128x128_S5000x128_1_0_0_1_n_n.lhsIdx_val_of_single rfl i _).trans hk)
  have er : Cert.KernelIdeal.dot_S5000x128_S128x128_S5000x128_1_0_0_1_n_n.rhsIdx i ((ValueIdx.contrEquiv1 Cert.KernelIdeal.dot_S5000x128_S128x128_S5000x128_1_0_0_1_n_n 128 rfl rfl).symm k) = rx i k := funext fun a => Fin.ext (by
    match a with
    | ⟨0, _⟩ => exact (Cert.KernelIdeal.dot_S5000x128_S128x128_S5000x128_1_0_0_1_n_n.rhsIdx_val_of_single rfl i _).trans hk
    | ⟨1, _⟩ => exact mmM_r1 _ _)
  rw [el, er]

theorem mmR1_l0 (i : Cert.KernelIdeal.S32x128.Idx) (q : Cert.KernelIdeal.dot_S32x128_S128x128_S32x128_1_0_0_1_n_n.contr.Idx) : (Cert.KernelIdeal.dot_S32x128_S128x128_S32x128_1_0_0_1_n_n.lhsIdx i q 0).val = (i 0).val := by
  unfold DotDims.lhsIdx
  rw [dif_neg (show ¬(0 : Fin Cert.KernelIdeal.S32x128.rank) ∈ Cert.KernelIdeal.dot_S32x128_S128x128_S32x128_1_0_0_1_n_n.lhsBatch by decide), dif_pos (show (0 : Fin Cert.KernelIdeal.S32x128.rank) ∈ Cert.KernelIdeal.dot_S32x128_S128x128_S32x128_1_0_0_1_n_n.lhsNonContracting by decide)]
  rfl
theorem mmR1_r1 (i : Cert.KernelIdeal.S32x128.Idx) (q : Cert.KernelIdeal.dot_S32x128_S128x128_S32x128_1_0_0_1_n_n.contr.Idx) : (Cert.KernelIdeal.dot_S32x128_S128x128_S32x128_1_0_0_1_n_n.rhsIdx i q 1).val = (i 1).val := by
  unfold DotDims.rhsIdx
  rw [dif_neg (show ¬(1 : Fin Cert.KernelIdeal.S128x128.rank) ∈ Cert.KernelIdeal.dot_S32x128_S128x128_S32x128_1_0_0_1_n_n.rhsBatch by decide), dif_pos (show (1 : Fin Cert.KernelIdeal.S128x128.rank) ∈ Cert.KernelIdeal.dot_S32x128_S128x128_S32x128_1_0_0_1_n_n.rhsNonContracting by decide)]
  rfl
/-- One contracted axis of length 128: the entry at `i` is the sum over `k` of (row of `i`, `k`) times (`k`, column of `i`). -/
theorem mmR1 (l : FVec Ideal Cert.KernelIdeal.S32x128 .bf16) (r : FVec Ideal Cert.KernelIdeal.S128x128 .bf16) (i : Cert.KernelIdeal.S32x128.Idx) :
    matmul (F := Ideal) Cert.KernelIdeal.dot_S32x128_S128x128_S32x128_1_0_0_1_n_n none l r (constant Cert.KernelIdeal.S32x128 .f32 0x00000000#32) i = ∑ k : Fin 128, l (lx i k) * r (rx i k) := by
  simp only [matmul]
  rw [Ideal.matmul_constant_zero_apply, ← Equiv.sum_comp (ValueIdx.contrEquiv1 Cert.KernelIdeal.dot_S32x128_S128x128_S32x128_1_0_0_1_n_n 128 rfl rfl).symm]
  refine Finset.sum_congr rfl fun k _ => ?_
  have hk := ValueIdx.contrEquiv1_symm_val Cert.KernelIdeal.dot_S32x128_S128x128_S32x128_1_0_0_1_n_n 128 rfl rfl k
  have el : Cert.KernelIdeal.dot_S32x128_S128x128_S32x128_1_0_0_1_n_n.lhsIdx i ((ValueIdx.contrEquiv1 Cert.KernelIdeal.dot_S32x128_S128x128_S32x128_1_0_0_1_n_n 128 rfl rfl).symm k) = lx i k := funext fun a => Fin.ext (by
    match a with
    | ⟨0, _⟩ => exact mmR1_l0 _ _
    | ⟨1, _⟩ => exact (Cert.KernelIdeal.dot_S32x128_S128x128_S32x128_1_0_0_1_n_n.lhsIdx_val_of_single rfl i _).trans hk)
  have er : Cert.KernelIdeal.dot_S32x128_S128x128_S32x128_1_0_0_1_n_n.rhsIdx i ((ValueIdx.contrEquiv1 Cert.KernelIdeal.dot_S32x128_S128x128_S32x128_1_0_0_1_n_n 128 rfl rfl).symm k) = rx i k := funext fun a => Fin.ext (by
    match a with
    | ⟨0, _⟩ => exact (Cert.KernelIdeal.dot_S32x128_S128x128_S32x128_1_0_0_1_n_n.rhsIdx_val_of_single rfl i _).trans hk
    | ⟨1, _⟩ => exact mmR1_r1 _ _)
  rw [el, er]

theorem mmR2_l0 (i : Cert.KernelIdeal.S32x1.Idx) (q : Cert.KernelIdeal.dot_S32x128_S128x1_S32x1_1_0_0_1_n_n.contr.Idx) : (Cert.KernelIdeal.dot_S32x128_S128x1_S32x1_1_0_0_1_n_n.lhsIdx i q 0).val = (i 0).val := by
  unfold DotDims.lhsIdx
  rw [dif_neg (show ¬(0 : Fin Cert.KernelIdeal.S32x128.rank) ∈ Cert.KernelIdeal.dot_S32x128_S128x1_S32x1_1_0_0_1_n_n.lhsBatch by decide), dif_pos (show (0 : Fin Cert.KernelIdeal.S32x128.rank) ∈ Cert.KernelIdeal.dot_S32x128_S128x1_S32x1_1_0_0_1_n_n.lhsNonContracting by decide)]
  rfl
theorem mmR2_r1 (i : Cert.KernelIdeal.S32x1.Idx) (q : Cert.KernelIdeal.dot_S32x128_S128x1_S32x1_1_0_0_1_n_n.contr.Idx) : (Cert.KernelIdeal.dot_S32x128_S128x1_S32x1_1_0_0_1_n_n.rhsIdx i q 1).val = (i 1).val := by
  unfold DotDims.rhsIdx
  rw [dif_neg (show ¬(1 : Fin Cert.KernelIdeal.S128x1.rank) ∈ Cert.KernelIdeal.dot_S32x128_S128x1_S32x1_1_0_0_1_n_n.rhsBatch by decide), dif_pos (show (1 : Fin Cert.KernelIdeal.S128x1.rank) ∈ Cert.KernelIdeal.dot_S32x128_S128x1_S32x1_1_0_0_1_n_n.rhsNonContracting by decide)]
  rfl
/-- One contracted axis of length 128: the entry at `i` is the sum over `k` of (row of `i`, `k`) times (`k`, column of `i`). -/
theorem mmR2 (l : FVec Ideal Cert.KernelIdeal.S32x128 .bf16) (r : FVec Ideal Cert.KernelIdeal.S128x1 .bf16) (i : Cert.KernelIdeal.S32x1.Idx) :
    matmul (F := Ideal) Cert.KernelIdeal.dot_S32x128_S128x1_S32x1_1_0_0_1_n_n none l r (constant Cert.KernelIdeal.S32x1 .f32 0x00000000#32) i = ∑ k : Fin 128, l (lx i k) * r (rx i k) := by
  simp only [matmul]
  rw [Ideal.matmul_constant_zero_apply, ← Equiv.sum_comp (ValueIdx.contrEquiv1 Cert.KernelIdeal.dot_S32x128_S128x1_S32x1_1_0_0_1_n_n 128 rfl rfl).symm]
  refine Finset.sum_congr rfl fun k _ => ?_
  have hk := ValueIdx.contrEquiv1_symm_val Cert.KernelIdeal.dot_S32x128_S128x1_S32x1_1_0_0_1_n_n 128 rfl rfl k
  have el : Cert.KernelIdeal.dot_S32x128_S128x1_S32x1_1_0_0_1_n_n.lhsIdx i ((ValueIdx.contrEquiv1 Cert.KernelIdeal.dot_S32x128_S128x1_S32x1_1_0_0_1_n_n 128 rfl rfl).symm k) = lx i k := funext fun a => Fin.ext (by
    match a with
    | ⟨0, _⟩ => exact mmR2_l0 _ _
    | ⟨1, _⟩ => exact (Cert.KernelIdeal.dot_S32x128_S128x1_S32x1_1_0_0_1_n_n.lhsIdx_val_of_single rfl i _).trans hk)
  have er : Cert.KernelIdeal.dot_S32x128_S128x1_S32x1_1_0_0_1_n_n.rhsIdx i ((ValueIdx.contrEquiv1 Cert.KernelIdeal.dot_S32x128_S128x1_S32x1_1_0_0_1_n_n 128 rfl rfl).symm k) = rx i k := funext fun a => Fin.ext (by
    match a with
    | ⟨0, _⟩ => exact (Cert.KernelIdeal.dot_S32x128_S128x1_S32x1_1_0_0_1_n_n.rhsIdx_val_of_single rfl i _).trans hk
    | ⟨1, _⟩ => exact mmR2_r1 _ _)
  rw [el, er]

/-! ## The three region functions, as host operations on whole arrays -/

/-- The embedding: x (as a column) times the weight row, plus the bias row on every node. -/
def embed (x2 : FVec Ideal Cert.ReferenceIdeal.S50000x1 .f32) (w : FVec Ideal Cert.ReferenceIdeal.S1x128 .f32) (b : FVec Ideal Cert.ReferenceIdeal.S1x128 .f32) : FVec Ideal Cert.ReferenceIdeal.S50000x128 .f32 :=
  addf (Host.dotGeneral Cert.ReferenceIdeal.dot_S50000x1_S1x128_S50000x128_1_0_0_1_n_n none x2 w)
    (broadcastInDim Cert.ReferenceIdeal.S50000x128 ![0, 1] Cert.ReferenceIdeal.Facts₀.bcast_S1x128_S50000x128_0_1 b)

/-- The node-feature product h·W. -/
def feat (h : FVec Ideal Cert.ReferenceIdeal.S50000x128 .f32) (w : FVec Ideal Cert.ReferenceIdeal.S128x128 .f32) : FVec Ideal Cert.ReferenceIdeal.S50000x128 .f32 :=
  Host.dotGeneral Cert.ReferenceIdeal.dot_S50000x128_S128x128_S50000x128_1_0_0_1_n_n none h w

/-- The readout tanh(p·W1 + b1)·W2 + b2. -/
def readout (p : FVec Ideal Cert.ReferenceIdeal.S32x128 .f32) (w1 : FVec Ideal Cert.ReferenceIdeal.S128x128 .f32) (b1 : FVec Ideal Cert.ReferenceIdeal.S1x128 .f32)
    (w2 : FVec Ideal Cert.ReferenceIdeal.S128x1 .f32) (b2 : FVec Ideal Cert.ReferenceIdeal.S1x1 .f32) : FVec Ideal Cert.ReferenceIdeal.S32x1 .f32 :=
  addf (Host.dotGeneral Cert.ReferenceIdeal.dot_S32x128_S128x1_S32x1_1_0_0_1_n_n none
      (Host.tanh (addf (Host.dotGeneral Cert.ReferenceIdeal.dot_S32x128_S128x128_S32x128_1_0_0_1_n_n none p w1)
        (broadcastInDim Cert.ReferenceIdeal.S32x128 ![0, 1] Cert.ReferenceIdeal.Facts₀.bcast_S1x128_S32x128_0_1 b1))) w2)
    (broadcastInDim Cert.ReferenceIdeal.S32x1 ![0, 1] Cert.ReferenceIdeal.Facts₀.bcast_S1x1_S32x1_0_1 b2)

/-- A row broadcast down the rows reads the row at the column. -/
theorem bcastRow_E (b : FVec Ideal Cert.ReferenceIdeal.S1x128 .f32) (i : Cert.ReferenceIdeal.S50000x128.Idx) :
    broadcastInDim Cert.ReferenceIdeal.S50000x128 ![0, 1] Cert.ReferenceIdeal.Facts₀.bcast_S1x128_S50000x128_0_1 b i = b (rx i (0 : Fin 1)) :=
  broadcastInDim_apply _ Cert.ReferenceIdeal.Facts₀.bcast_S1x128_S50000x128_0_1 b i (rx i (0 : Fin 1)) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])
theorem bcastRow_R (b : FVec Ideal Cert.ReferenceIdeal.S1x128 .f32) (i : Cert.ReferenceIdeal.S32x128.Idx) :
    broadcastInDim Cert.ReferenceIdeal.S32x128 ![0, 1] Cert.ReferenceIdeal.Facts₀.bcast_S1x128_S32x128_0_1 b i = b (rx i (0 : Fin 1)) :=
  broadcastInDim_apply _ Cert.ReferenceIdeal.Facts₀.bcast_S1x128_S32x128_0_1 b i (rx i (0 : Fin 1)) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])
theorem bcastOne_R (b : FVec Ideal Cert.ReferenceIdeal.S1x1 .f32) (i : Cert.ReferenceIdeal.S32x1.Idx) :
    broadcastInDim Cert.ReferenceIdeal.S32x1 ![0, 1] Cert.ReferenceIdeal.Facts₀.bcast_S1x1_S32x1_0_1 b i = b (rx i (0 : Fin 1)) :=
  broadcastInDim_apply _ Cert.ReferenceIdeal.Facts₀.bcast_S1x1_S32x1_0_1 b i (rx i (0 : Fin 1)) (fun a => match a with
    | ⟨0, _⟩ => by show 0 = if (1 : Nat) = 1 then 0 else (i 0).val; rw [if_pos rfl]
    | ⟨1, _⟩ => by show (i 1).val = if (1 : Nat) = 1 then 0 else (i 1).val; rw [if_pos rfl]; have h1 : (i 1).val < 1 := (i 1).isLt; omega)

theorem embed_apply (x2 : FVec Ideal Cert.ReferenceIdeal.S50000x1 .f32) (w b : FVec Ideal Cert.ReferenceIdeal.S1x128 .f32) (i : Cert.ReferenceIdeal.S50000x128.Idx) :
    embed x2 w b i = x2 (lx i (0 : Fin 1)) * w (rx i (0 : Fin 1)) + b (rx i (0 : Fin 1)) := by
  show Host.dotGeneral (F := Ideal) _ none x2 w i + broadcastInDim _ ![0, 1] _ b i = _
  rw [dgE, bcastRow_E, Fin.sum_univ_one]

theorem feat_apply (h : FVec Ideal Cert.ReferenceIdeal.S50000x128 .f32) (w : FVec Ideal Cert.ReferenceIdeal.S128x128 .f32) (i : Cert.ReferenceIdeal.S50000x128.Idx) :
    feat h w i = ∑ k : Fin 128, h (lx i k) * w (rx i k) := dgM h w i

theorem readout_apply (p : FVec Ideal Cert.ReferenceIdeal.S32x128 .f32) (w1 : FVec Ideal Cert.ReferenceIdeal.S128x128 .f32) (b1 : FVec Ideal Cert.ReferenceIdeal.S1x128 .f32)
    (w2 : FVec Ideal Cert.ReferenceIdeal.S128x1 .f32) (b2 : FVec Ideal Cert.ReferenceIdeal.S1x1 .f32) (i : Cert.ReferenceIdeal.S32x1.Idx) :
    readout p w1 b1 w2 b2 i = (∑ k : Fin 128, Ideal.tanh ((∑ k' : Fin 128, p (lx (lx i k) k') * w1 (rx (lx i k) k')) + b1 (rx (lx i k) (0 : Fin 1))) * w2 (rx i k))
      + b2 (rx i (0 : Fin 1)) := by
  show Host.dotGeneral (F := Ideal) _ none (Host.tanh (addf (Host.dotGeneral _ none p w1) (broadcastInDim _ ![0, 1] _ b1))) w2 i + broadcastInDim _ ![0, 1] _ b2 i = _
  rw [dgR2, bcastOne_R]
  refine congrArg (· + _) (Finset.sum_congr rfl fun k _ => congrArg (· * _) ?_)
  show Ideal.tanh (Host.dotGeneral (F := Ideal) _ none p w1 (lx i k) + broadcastInDim _ ![0, 1] _ b1 (lx i k)) = _
  rw [dgR1, bcastRow_R]

end Cert.Spec

end
-- ==== Proof.Pay.lean ====
/-
  What each kernel body stores, read at an index of its block, over the extended reals.
  The embedding body stores x·w + b with x a column and w, b rows; the node-feature body stores the product of its
  row block with the whole weight matrix (the narrowing to bf16 before the product is the identity here, and the
  accumulator starts at zero); the readout body stores tanh(p·W1 + b1)·W2 + b2. Each is the formula of the corresponding
  whole-array function, with the block's own rows in place of the array's.
-/
import proofs.«127445_j34351148433711_1_alg».proof.Proof.Gen.KernelIdeal.Skeleton
import proofs.«127445_j34351148433711_1_alg».proof.Proof.Spec

noncomputable section

namespace Cert.Pay

open Idealize.ShloMosaic Cert.KernelIdeal Cert.KernelIdeal.Gen Cert.Spec

/-- A column [r, 1] broadcast along the lanes reads the column at the row. -/
theorem bcol_5000 (x : FVec Ideal S5000x1 .f32) (j : S5000x128.Idx) :
    broadcastTo S5000x128 x Facts₀.broadcasts_S5000x1_S5000x128 j = x (lx j (0 : Fin 1)) :=
  broadcastTo_apply x Facts₀.broadcasts_S5000x1_S5000x128 j (lx j (0 : Fin 1)) (fun a => match a with
    | ⟨0, _⟩ => by show (j 0).val = if (5000 : Nat) = 1 then 0 else (j 0).val; rw [if_neg (by decide)]
    | ⟨1, _⟩ => by show 0 = if (1 : Nat) = 1 then 0 else (j 1).val; rw [if_pos rfl])
/-- A row [1, 128] broadcast down the rows reads the row at the lane. -/
theorem brow_5000 (x : FVec Ideal S1x128 .f32) (j : S5000x128.Idx) :
    broadcastTo S5000x128 x Facts₀.broadcasts_S1x128_S5000x128 j = x (rx j (0 : Fin 1)) :=
  broadcastTo_apply x Facts₀.broadcasts_S1x128_S5000x128 j (rx j (0 : Fin 1)) (fun a => match a with
    | ⟨0, _⟩ => by show 0 = if (1 : Nat) = 1 then 0 else (j 0).val; rw [if_pos rfl]
    | ⟨1, _⟩ => by show (j 1).val = if (128 : Nat) = 1 then 0 else (j 1).val; rw [if_neg (by decide)])
theorem brow_32 (x : FVec Ideal S1x128 .f32) (j : S32x128.Idx) :
    broadcastTo S32x128 x Facts₀.broadcasts_S1x128_S32x128 j = x (rx j (0 : Fin 1)) :=
  broadcastTo_apply x Facts₀.broadcasts_S1x128_S32x128 j (rx j (0 : Fin 1)) (fun a => match a with
    | ⟨0, _⟩ => by show 0 = if (1 : Nat) = 1 then 0 else (j 0).val; rw [if_pos rfl]
    | ⟨1, _⟩ => by show (j 1).val = if (128 : Nat) = 1 then 0 else (j 1).val; rw [if_neg (by decide)])
theorem bone_32 (x : FVec Ideal S1x1 .f32) (j : S32x1.Idx) :
    broadcastTo S32x1 x Facts₀.broadcasts_S1x1_S32x1 j = x (rx j (0 : Fin 1)) :=
  broadcastTo_apply x Facts₀.broadcasts_S1x1_S32x1 j (rx j (0 : Fin 1)) (fun a => match a with
    | ⟨0, _⟩ => by show 0 = if (1 : Nat) = 1 then 0 else (j 0).val; rw [if_pos rfl]
    | ⟨1, _⟩ => by show (j 1).val = if (1 : Nat) = 1 then 0 else (j 1).val; rw [if_pos rfl]; have h1 : (j 1).val < 1 := (j 1).isLt; omega)

/-- The embedding body at (r, c): x[r]·w[c] + b[c]. -/
theorem embed_pay (x0 : Vec Ideal S5000x1 .f32) (x1 x2 : Vec Ideal S1x128 .f32) (j : S5000x128.Idx) :
    k0_pay1 (F := Ideal) x0 x1 x2 j = x0 (lx j (0 : Fin 1)) * x1 (rx j (0 : Fin 1)) + x2 (rx j (0 : Fin 1)) := by
  unfold k0_pay1
  show broadcastTo S5000x128 (shapeCast S5000x1 x0 Facts₀.shapeCasts_S5000x1_S5000x1) Facts₀.broadcasts_S5000x1_S5000x128 j
      * broadcastTo S5000x128 x1 Facts₀.broadcasts_S1x128_S5000x128 j
      + broadcastTo S5000x128 (shapeCast S1x128 x2 Facts₀.shapeCasts_S1x128_S1x128) Facts₀.broadcasts_S1x128_S5000x128 j = _
  rw [shapeCast_self, shapeCast_self, bcol_5000, brow_5000, brow_5000]

/-- The node-feature body at (r, c): the sum over k of h[r, k]·W[k, c] (the same text for each of the three layers). -/
theorem feat_pay1 (x0 : Vec Ideal S5000x128 .f32) (x1 : Vec Ideal S128x128 .f32) (j : S5000x128.Idx) :
    k1_pay1 (F := Ideal) x0 x1 j = ∑ k : Fin 128, x0 (lx j k) * x1 (rx j k) := by
  unfold k1_pay1
  refine (mmM _ _ j).trans (Finset.sum_congr rfl fun k _ => ?_)
  show shapeCast S5000x128 x0 Facts₀.shapeCasts_S5000x128_S5000x128 (lx j k) * shapeCast S128x128 x1 Facts₀.shapeCasts_S128x128_S128x128 (rx j k) = _
  rw [shapeCast_self, shapeCast_self]
theorem feat_pay2 (x0 : Vec Ideal S5000x128 .f32) (x1 : Vec Ideal S128x128 .f32) (j : S5000x128.Idx) :
    k2_pay1 (F := Ideal) x0 x1 j = ∑ k : Fin 128, x0 (lx j k) * x1 (rx j k) := feat_pay1 x0 x1 j
theorem feat_pay3 (x0 : Vec Ideal S5000x128 .f32) (x1 : Vec Ideal S128x128 .f32) (j : S5000x128.Idx) :
    k3_pay1 (F := Ideal) x0 x1 j = ∑ k : Fin 128, x0 (lx j k) * x1 (rx j k) := feat_pay1 x0 x1 j

/-- The readout body at (g, 0): the sum over k of tanh(∑ k' p[g, k']·W1[k', k] + b1[k])·W2[k, 0], plus b2. -/
theorem readout_pay (x0 : Vec Ideal S32x128 .f32) (x1 : Vec Ideal S128x128 .f32) (x2 : Vec Ideal S1x128 .f32)
    (x3 : Vec Ideal S128x1 .f32) (x4 : Vec Ideal S1x1 .f32) (j : S32x1.Idx) :
    k4_pay1 (F := Ideal) x0 x1 x2 x3 x4 j
      = (∑ k : Fin 128, Ideal.tanh ((∑ k' : Fin 128, x0 (lx (lx j k) k') * x1 (rx (lx j k) k')) + x2 (rx (lx j k) (0 : Fin 1))) * x3 (rx j k))
        + x4 (rx j (0 : Fin 1)) := by
  unfold k4_pay1
  refine congrArg₂ (· + ·) ((mmR2 _ _ j).trans (Finset.sum_congr rfl fun k _ => congrArg (· * _) ?_)) ?_
  · show Ideal.tanh (matmul (F := Ideal) dot_S32x128_S128x128_S32x128_1_0_0_1_n_n none
        (truncf .bf16 (shapeCast S32x128 x0 Facts₀.shapeCasts_S32x128_S32x128) Facts₀.bitsLt_bf16_f32) (truncf .bf16 x1 Facts₀.bitsLt_bf16_f32)
        (constant S32x128 .f32 0x00000000#32) (lx j k)
      + broadcastTo S32x128 (shapeCast S1x128 x2 Facts₀.shapeCasts_S1x128_S1x128) Facts₀.broadcasts_S1x128_S32x128 (lx j k)) = _
    rw [mmR1, shapeCast_self, shapeCast_self, brow_32]
    rfl
  · show broadcastTo S32x1 (shapeCast S1x1 x4 Facts₀.shapeCasts_S1x1_S1x1) Facts₀.broadcasts_S1x1_S32x1 j = _
    rw [shapeCast_self, bone_32]

end Cert.Pay

end
-- ==== Proof.Region0.lean ====
/-
  Region 0 (the embedding) as one whole-array function. The grid has ten points; point t stages rows 5000·t … 5000·t + 4999
  of the input column, the whole weight row and the whole bias row, and writes back the same rows of the output. Row r
  of a block is row 5000·t + r of the array and the two rows are staged whole, so what point t writes back is block t of
  x·w + b; the ten blocks cover every row.
-/
import proofs.«127445_j34351148433711_1_alg».proof.Proof.Gen.KernelIdeal.Frame
import proofs.«127445_j34351148433711_1_alg».proof.Proof.Pay
import Idealize.ShloMosaic.Lib.Pipeline.Value

set_option maxRecDepth 16384

noncomputable section

namespace Cert.Region0

open Cert.KernelIdeal Cert.KernelIdeal.Gen Idealize.ShloMosaic Idealize.ShloMosaic.TcCoe Idealize.SL.Sem Cert.Spec Cert.Pay
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten points: the column and the output sit at block row t, the two rows at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of x·w + b of the arrays the region found. -/
theorem flushed_eq (c : Dev nD) (t : Fin cfg0.N) :
    (dat0 V c).flushed 3 t = ((cfg0.win 3).blk t).view.read (Elt Ideal) (embed (V c main_v0) (V c main_arg3) (V c main_v1)) := by
  show (cfg0.win 3).cut (grid0.coords t) ((dat0 V c).after 3 t) = _
  rw [after0_3]
  unfold out0_3
  rw [View.canon_unit_zero hz]
  simp only [View.ld_unit_zero (S := S5000x1) hz, View.ld_unit_zero (S := S1x128) hz]
  obtain ⟨e0, e1, e2, e3, e4, e5, e6, e7⟩ := idx_facts t
  funext j
  show k0_pay1 (iblk0 V c 0 t) (iblk0 V c 1 t) (iblk0 V c 2 t) j = embed (V c main_v0) (V c main_arg3) (V c main_v1) (((cfg0.win 3).blk t).view.emb j)
  refine (embed_pay (iblk0 V c 0 t) (iblk0 V c 1 t) (iblk0 V c 2 t) j).trans (Eq.trans ?_ (embed_apply (V c main_v0) (V c main_arg3) (V c main_v1) (((cfg0.win 3).blk t).view.emb j)).symm)
  have h0 : iblk0 V c 0 t (lx j (0 : Fin 1)) = V c main_v0 (lx (((cfg0.win 3).blk t).view.emb j) (0 : Fin 1)) := by
    show V c main_v0 (((cfg0.win 0).blk t).view.emb (lx j (0 : Fin 1))) = _
    refine congrArg (V c main_v0) (funext fun a => Fin.ext ?_)
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 1 + 1 * 0 = 0; omega
  have h1 : iblk0 V c 1 t (rx j (0 : Fin 1)) = V c main_arg3 (rx (((cfg0.win 3).blk t).view.emb j) (0 : Fin 1)) := by
    show V c main_arg3 (((cfg0.win 1).blk t).view.emb (rx j (0 : Fin 1))) = _
    refine congrArg (V c main_arg3) (funext fun a => Fin.ext ?_)
    match a with
    | ⟨0, _⟩ => show win0_1.index t (0 : Fin 2) * 1 + 1 * 0 = 0; omega
    | ⟨1, _⟩ => show win0_1.index t (1 : Fin 2) * 128 + 1 * (j 1).val = win0_3.index t (1 : Fin 2) * 128 + 1 * (j 1).val; omega
  have h2 : iblk0 V c 2 t (rx j (0 : Fin 1)) = V c main_v1 (rx (((cfg0.win 3).blk t).view.emb j) (0 : Fin 1)) := by
    show V c main_v1 (((cfg0.win 2).blk t).view.emb (rx j (0 : Fin 1))) = _
    refine congrArg (V c main_v1) (funext fun a => Fin.ext ?_)
    match a with
    | ⟨0, _⟩ => show win0_2.index t (0 : Fin 2) * 1 + 1 * 0 = 0; omega
    | ⟨1, _⟩ => show win0_2.index t (1 : Fin 2) * 128 + 1 * (j 1).val = win0_3.index t (1 : Fin 2) * 128 + 1 * (j 1).val; omega
  rw [h0, h1, h2]

/-- An index of the output array is in point t's block iff each coordinate is in the block's range on its axis. -/
theorem mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v2).slice (win0_3.rect t)).set ↔ _
  rw [View.set_slice_whole, Rect.mem_set_unit]
  exact Iff.rfl

/-- Every row is in some point's block: row r in that of point r / 5000. -/
theorem cover (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have hN : (i 0).val / 5000 < cfg0.N := by rw [show cfg0.N = 10 from N_0]; omega
  obtain ⟨e0, e1, e2, e3, e4, e5, e6, e7⟩ := idx_facts ⟨(i 0).val / 5000, hN⟩
  refine ⟨⟨(i 0).val / 5000, hN⟩, flush0_3 _, ?_⟩
  rw [mem_blk]
  intro a
  match a with
  | ⟨0, _⟩ =>
    show win0_3.index ⟨(i 0).val / 5000, hN⟩ (0 : Fin 2) * 5000 ≤ (i 0).val ∧ (i 0).val < win0_3.index ⟨(i 0).val / 5000, hN⟩ (0 : Fin 2) * 5000 + 5000
    rw [e6]; show (i 0).val / 5000 * 5000 ≤ (i 0).val ∧ (i 0).val < (i 0).val / 5000 * 5000 + 5000; omega
  | ⟨1, _⟩ =>
    show win0_3.index ⟨(i 0).val / 5000, hN⟩ (1 : Fin 2) * 128 ≤ (i 1).val ∧ (i 1).val < win0_3.index ⟨(i 0).val / 5000, hN⟩ (1 : Fin 2) * 128 + 128
    rw [e7]; omega

/-- The output array after the region: x·w + b of the arrays the region found. -/
theorem final (c : Dev nD) : (dat0 V c).arrAt 3 cfg0.N = embed (V c main_v0) (V c main_arg3) (V c main_v1) :=
  (dat0 V c).arrAt_eq_of_cover 3 (embed (V c main_v0) (V c main_arg3) (V c main_v1)) (fun t _ => flushed_eq V c t) (cover)

end Cert.Region0

end
-- ==== Proof.Rows.lean ====
/-
  A vector of length n written as a one-row [1, n] array is the same array whether it is reshaped or broadcast along a new
  leading axis of size one: entry (0, c) is entry c either way. (The kernel's host code reshapes the two bias vectors and
  the final scalar bias before its calls; the reference broadcasts them.)
-/
import proofs.«127445_j34351148433711_1_alg».proof.Proof.Gen.KernelIdeal
import proofs.«127445_j34351148433711_1_alg».proof.Proof.Gen.ReferenceIdeal
import Idealize.ShloMosaic.Lib.Pipeline.Value

noncomputable section

namespace Cert.Rows

open Idealize.ShloMosaic

theorem row128 {α : Type} (x : Cert.KernelIdeal.S128.Idx → α) :
    shapeCast Cert.KernelIdeal.S1x128 x Cert.KernelIdeal.Facts₀.shapeCasts_S128_S1x128
      = broadcastInDim Cert.ReferenceIdeal.S1x128 ![1] Cert.ReferenceIdeal.Facts₀.bcast_S128_S1x128_1 x := by
  funext i
  have h0 : (i 0).val < 1 := (i 0).isLt
  have h1 : (i 1).val < 128 := (i 1).isLt
  rw [shapeCast_apply x Cert.KernelIdeal.Facts₀.shapeCasts_S128_S1x128 i (fun a => match a with | ⟨0, _⟩ => ⟨(i 1).val, (i 1).isLt⟩)
      (by rewrite [Shape.rowMajor_val_one, Shape.rowMajor_val_two]; show (i 1).val = (i 0).val * 128 + (i 1).val; omega),
    broadcastInDim_apply _ Cert.ReferenceIdeal.Facts₀.bcast_S128_S1x128_1 x i (fun a => match a with | ⟨0, _⟩ => ⟨(i 1).val, (i 1).isLt⟩)
      (fun a => match a with
        | ⟨0, _⟩ => by show (i 1).val = if (128 : Nat) = 1 then 0 else (i 1).val; rw [if_neg (by decide)])]
  rfl

theorem one1 {α : Type} (x : Cert.KernelIdeal.S1.Idx → α) :
    shapeCast Cert.KernelIdeal.S1x1 x Cert.KernelIdeal.Facts₀.shapeCasts_S1_S1x1
      = broadcastInDim Cert.ReferenceIdeal.S1x1 ![1] Cert.ReferenceIdeal.Facts₀.bcast_S1_S1x1_1 x := by
  funext i
  have h0 : (i 0).val < 1 := (i 0).isLt
  have h1 : (i 1).val < 1 := (i 1).isLt
  rw [shapeCast_apply x Cert.KernelIdeal.Facts₀.shapeCasts_S1_S1x1 i (fun a => match a with | ⟨0, _⟩ => ⟨(i 1).val, (i 1).isLt⟩)
      (by rewrite [Shape.rowMajor_val_one, Shape.rowMajor_val_two]; show (i 1).val = (i 0).val * 1 + (i 1).val; omega),
    broadcastInDim_apply _ Cert.ReferenceIdeal.Facts₀.bcast_S1_S1x1_1 x i (fun a => match a with | ⟨0, _⟩ => ⟨(i 1).val, (i 1).isLt⟩)
      (fun a => match a with
        | ⟨0, _⟩ => by show (i 1).val = if (1 : Nat) = 1 then 0 else (i 1).val; rw [if_pos rfl]; omega)]
  rfl

end Cert.Rows

end
-- ==== Proof.FoldA.lean ====
/-
  The boundary contents up to the end of region 0, as the reference's stages of the launch arguments.
  Before region 0 the host reshapes x to a column and the bias to a row; region 0 leaves x·w + b in its output array, which
  is the reference's first stage (its product has a contracted axis of length one); no argument array is written.
-/
import proofs.«127445_j34351148433711_1_alg».proof.Proof.Region0
import proofs.«127445_j34351148433711_1_alg».proof.Proof.Rows
import proofs.«127445_j34351148433711_1_alg».proof.Proof.RefRead

set_option maxRecDepth 16384
set_option maxHeartbeats 4000000

noncomputable section

namespace Cert.Fold

open Cert.KernelIdeal Cert.KernelIdeal.Gen Idealize.ShloMosaic Idealize.ShloMosaic.TcCoe Idealize.SL.Sem Idealize.ShloMosaic.StableHlo Cert.Spec

variable (m : (ℓ : Loc nD τ sig) → Buf (Elt Ideal) ℓ) (ρ : Dev nD → PrngReg)

theorem W0_arg (c : Dev nD) (b : Ref sig .tc) : W0 m ρ c (Proc.devRef .tc b) = m ((c : Thread nD τ).loc b) := rfl

theorem W1_v0 (c : Dev nD) : W1 m ρ c (Proc.devRef .tc main_v0) = Cert.ReferenceIdeal.ReadP.val_main_v0 (F := Ideal) (m ((c : Thread nD τ).loc main_arg0)) := by
  show StableHlo.after hostOps0 (W0 m ρ c) (Proc.devRef .tc main_v0) = _
  after_results_pairs <;> rfl
theorem W1_v1 (c : Dev nD) : W1 m ρ c (Proc.devRef .tc main_v1) = Cert.ReferenceIdeal.ReadP.val_main_v2 (F := Ideal) (m ((c : Thread nD τ).loc main_arg4)) := by
  show StableHlo.after hostOps0 (W0 m ρ c) (Proc.devRef .tc main_v1) = _
  after_results_pairs
  exact Cert.Rows.row128 (m ((c : Thread nD τ).loc main_arg4))
theorem W1_arg3 (c : Dev nD) : W1 m ρ c (Proc.devRef .tc main_arg3) = (m ((c : Thread nD τ).loc main_arg3)) := by
  show StableHlo.after hostOps0 (W0 m ρ c) (Proc.devRef .tc main_arg3) = _
  after_results_pairs <;> rfl
/-- Region 0's output: x·w + b, the reference's embedding. -/
theorem W2_v2 (c : Dev nD) : W2 m ρ c (Proc.devRef .tc main_v2) = Cert.ReferenceIdeal.ReadP.val_main_v4 (F := Ideal) (m ((c : Thread nD τ).loc main_arg0)) (m ((c : Thread nD τ).loc main_arg3)) (m ((c : Thread nD τ).loc main_arg4)) := by
  refine (W2_arr m ρ c 3).trans ((Cert.Region0.final (V1 m ρ) c).trans ?_)
  show embed (W1 m ρ c (Proc.devRef .tc main_v0)) (W1 m ρ c (Proc.devRef .tc main_arg3)) (W1 m ρ c (Proc.devRef .tc main_v1)) = _
  rw [W1_v0, W1_arg3, W1_v1]
  rfl
theorem W2_arg1 (c : Dev nD) : W2 m ρ c (Proc.devRef .tc main_arg1) = (m ((c : Thread nD τ).loc main_arg1)) := (W2_of_ne m ρ c main_arg1 (by decide)).trans (by
  show StableHlo.after hostOps0 (W0 m ρ c) (Proc.devRef .tc main_arg1) = _
  after_results_pairs <;> rfl)
theorem W2_arg2 (c : Dev nD) : W2 m ρ c (Proc.devRef .tc main_arg2) = (m ((c : Thread nD τ).loc main_arg2)) := (W2_of_ne m ρ c main_arg2 (by decide)).trans (by
  show StableHlo.after hostOps0 (W0 m ρ c) (Proc.devRef .tc main_arg2) = _
  after_results_pairs <;> rfl)
theorem W2_arg5 (c : Dev nD) : W2 m ρ c (Proc.devRef .tc main_arg5) = (m ((c : Thread nD τ).loc main_arg5)) := (W2_of_ne m ρ c main_arg5 (by decide)).trans (by
  show StableHlo.after hostOps0 (W0 m ρ c) (Proc.devRef .tc main_arg5) = _
  after_results_pairs <;> rfl)
theorem W2_arg6 (c : Dev nD) : W2 m ρ c (Proc.devRef .tc main_arg6) = (m ((c : Thread nD τ).loc main_arg6)) := (W2_of_ne m ρ c main_arg6 (by decide)).trans (by
  show StableHlo.after hostOps0 (W0 m ρ c) (Proc.devRef .tc main_arg6) = _
  after_results_pairs <;> rfl)
theorem W2_arg7 (c : Dev nD) : W2 m ρ c (Proc.devRef .tc main_arg7) = (m ((c : Thread nD τ).loc main_arg7)) := (W2_of_ne m ρ c main_arg7 (by decide)).trans (by
  show StableHlo.after hostOps0 (W0 m ρ c) (Proc.devRef .tc main_arg7) = _
  after_results_pairs <;> rfl)
theorem W2_arg8 (c : Dev nD) : W2 m ρ c (Proc.devRef .tc main_arg8) = (m ((c : Thread nD τ).loc main_arg8)) := (W2_of_ne m ρ c main_arg8 (by decide)).trans (by
  show StableHlo.after hostOps0 (W0 m ρ c) (Proc.devRef .tc main_arg8) = _
  after_results_pairs <;> rfl)
theorem W2_arg9 (c : Dev nD) : W2 m ρ c (Proc.devRef .tc main_arg9) = (m ((c : Thread nD τ).loc main_arg9)) := (W2_of_ne m ρ c main_arg9 (by decide)).trans (by
  show StableHlo.after hostOps0 (W0 m ρ c) (Proc.devRef .tc main_arg9) = _
  after_results_pairs <;> rfl)
theorem W2_arg10 (c : Dev nD) : W2 m ρ c (Proc.devRef .tc main_arg10) = (m ((c : Thread nD τ).loc main_arg10)) := (W2_of_ne m ρ c main_arg10 (by decide)).trans (by
  show StableHlo.after hostOps0 (W0 m ρ c) (Proc.devRef .tc main_arg10) = _
  after_results_pairs <;> rfl)

end Cert.Fold

end
-- ==== Proof.Region1.lean ====
/-
  Region 1 (a node-feature product) as one whole-array function. The grid has ten points; point t stages rows
  5000·t … 5000·t + 4999 of the node array, the whole weight matrix, and writes back the same rows of the output. What
  point t writes back is block t of the whole product h·W, because row r of a block is row 5000·t + r of the array and the
  weight block is the matrix itself; the ten blocks cover every row, so the output array ends as h·W of the arrays the
  region found.
-/
import proofs.«127445_j34351148433711_1_alg».proof.Proof.Gen.KernelIdeal.Frame
import proofs.«127445_j34351148433711_1_alg».proof.Proof.Pay
import Idealize.ShloMosaic.Lib.Pipeline.Value

set_option maxRecDepth 16384

noncomputable section

namespace Cert.Region1

open Cert.KernelIdeal Cert.KernelIdeal.Gen Idealize.ShloMosaic Idealize.ShloMosaic.TcCoe Idealize.SL.Sem Cert.Spec Cert.Pay
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten points: the row windows sit at block row t, the weight window at the origin. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the whole product of the arrays the region found. -/
theorem flushed_eq (c : Dev nD) (t : Fin cfg1.N) :
    (dat1 V c).flushed 2 t = ((cfg1.win 2).blk t).view.read (Elt Ideal) (feat (V c main_v2) (V c main_v35)) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x128) hz]
  obtain ⟨e0, e1, e2, e3, e4, e5⟩ := idx_facts t
  funext j
  show k1_pay1 (iblk1 V c 0 t) (iblk1 V c 1 t) j = feat (V c main_v2) (V c main_v35) (((cfg1.win 2).blk t).view.emb j)
  refine (feat_pay1 (iblk1 V c 0 t) (iblk1 V c 1 t) j).trans (Eq.trans ?_ (feat_apply (V c main_v2) (V c main_v35) (((cfg1.win 2).blk t).view.emb j)).symm)
  refine Finset.sum_congr rfl fun k _ => ?_
  have h0 : iblk1 V c 0 t (lx j k) = V c main_v2 (lx (((cfg1.win 2).blk t).view.emb j) k) := by
    show V c main_v2 (((cfg1.win 0).blk t).view.emb (lx j k)) = _
    refine congrArg (V c main_v2) (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * k.val = k.val; omega
  have h1 : iblk1 V c 1 t (rx j k) = V c main_v35 (rx (((cfg1.win 2).blk t).view.emb j) k) := by
    show V c main_v35 (((cfg1.win 1).blk t).view.emb (rx j k)) = _
    refine congrArg (V c main_v35) (funext fun a => Fin.ext ?_)
    match a with
    | ⟨0, _⟩ => show win1_1.index t (0 : Fin 2) * 128 + 1 * k.val = k.val; omega
    | ⟨1, _⟩ => show win1_1.index t (1 : Fin 2) * 128 + 1 * (j 1).val = win1_2.index t (1 : Fin 2) * 128 + 1 * (j 1).val; omega
  rw [h0, h1]

/-- An index of the output array is in point t's block iff each coordinate is in the block's range on its axis. -/
theorem mem_blk (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v36).slice (win1_2.rect t)).set ↔ _
  rw [View.set_slice_whole, Rect.mem_set_unit]
  exact Iff.rfl

/-- Every row is in some point's block: row r in that of point r / 5000. -/
theorem cover (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  have hN : (i 0).val / 5000 < cfg1.N := by rw [show cfg1.N = 10 from N_1]; omega
  obtain ⟨e0, e1, e2, e3, e4, e5⟩ := idx_facts ⟨(i 0).val / 5000, hN⟩
  refine ⟨⟨(i 0).val / 5000, hN⟩, flush1_2 _, ?_⟩
  rw [mem_blk]
  intro a
  match a with
  | ⟨0, _⟩ =>
    show win1_2.index ⟨(i 0).val / 5000, hN⟩ (0 : Fin 2) * 5000 ≤ (i 0).val ∧ (i 0).val < win1_2.index ⟨(i 0).val / 5000, hN⟩ (0 : Fin 2) * 5000 + 5000
    rw [e4]; show (i 0).val / 5000 * 5000 ≤ (i 0).val ∧ (i 0).val < (i 0).val / 5000 * 5000 + 5000; omega
  | ⟨1, _⟩ =>
    show win1_2.index ⟨(i 0).val / 5000, hN⟩ (1 : Fin 2) * 128 ≤ (i 1).val ∧ (i 1).val < win1_2.index ⟨(i 0).val / 5000, hN⟩ (1 : Fin 2) * 128 + 128
    rw [e5]; omega

/-- The output array after the region: the whole product of the arrays the region found. -/
theorem final (c : Dev nD) : (dat1 V c).arrAt 2 cfg1.N = feat (V c main_v2) (V c main_v35) :=
  (dat1 V c).arrAt_eq_of_cover 2 (feat (V c main_v2) (V c main_v35)) (fun t _ => flushed_eq V c t) (cover)

end Cert.Region1

end
-- ==== Proof.FoldB.lean ====
/-
  The boundary contents up to the end of region 1. Between regions 0 and 1 the host builds, from the edge list alone, the
  source and destination index lists (the edges followed by one self-loop per node) and the normalisation
  dinv[src]·dinv[dst], where dinv is the inverse square root of the in-degree where it is positive; the reference builds the
  same three arrays by the same operations. Region 1 leaves the product of the embedding with the first weight matrix.
-/
import proofs.«127445_j34351148433711_1_alg».proof.Proof.FoldA
import proofs.«127445_j34351148433711_1_alg».proof.Proof.Region1

set_option maxRecDepth 16384
set_option maxHeartbeats 4000000

noncomputable section

namespace Cert.Fold

open Cert.KernelIdeal Cert.KernelIdeal.Gen Idealize.ShloMosaic Idealize.ShloMosaic.TcCoe Idealize.SL.Sem Idealize.ShloMosaic.StableHlo Cert.Spec

variable (m : (ℓ : Loc nD τ sig) → Buf (Elt Ideal) ℓ) (ρ : Dev nD → PrngReg)

theorem W5_v2 (c : Dev nD) : W5 m ρ c (Proc.devRef .tc main_v2) = Cert.ReferenceIdeal.ReadP.val_main_v4 (F := Ideal) (m ((c : Thread nD τ).loc main_arg0)) (m ((c : Thread nD τ).loc main_arg3)) (m ((c : Thread nD τ).loc main_arg4)) := by
  show StableHlo.after hostOps1_2 (StableHlo.after hostOps1_1 (StableHlo.after hostOps1 (W2 m ρ c))) (Proc.devRef .tc main_v2) = _
  after_results_pairs
  exact W2_v2 m ρ c
theorem W5_v35 (c : Dev nD) : W5 m ρ c (Proc.devRef .tc main_v35) = Cert.ReferenceIdeal.ReadP.val_main_v37 (F := Ideal) (m ((c : Thread nD τ).loc main_arg5)) := by
  show StableHlo.after hostOps1_2 (StableHlo.after hostOps1_1 (StableHlo.after hostOps1 (W2 m ρ c))) (Proc.devRef .tc main_v35) = _
  after_results_pairs
  simp only [W2_arg5 m ρ c] <;> rfl
set_option maxRecDepth 200000 in
/-- The source list: the edges' sources followed by one self-loop per node. -/
theorem W5_v6 (c : Dev nD) : W5 m ρ c (Proc.devRef .tc main_v6) = Cert.ReferenceIdeal.ReadP.val_main_v8 (F := Ideal) (m ((c : Thread nD τ).loc main_arg1)) := by
  show StableHlo.after hostOps1_2 (StableHlo.after hostOps1_1 (StableHlo.after hostOps1 (W2 m ρ c))) (Proc.devRef .tc main_v6) = _
  after_results_pairs
  simp only [W2_arg1 m ρ c] <;> rfl
set_option maxRecDepth 200000 in
/-- The destination list. -/
theorem W5_v9 (c : Dev nD) : W5 m ρ c (Proc.devRef .tc main_v9) = Cert.ReferenceIdeal.ReadP.val_main_v11 (F := Ideal) (m ((c : Thread nD τ).loc main_arg1)) := by
  show StableHlo.after hostOps1_2 (StableHlo.after hostOps1_1 (StableHlo.after hostOps1 (W2 m ρ c))) (Proc.devRef .tc main_v9) = _
  after_results_pairs
  simp only [W2_arg1 m ρ c] <;> rfl
/-- The three operations of the inlined `where`: select the first operand where the mask holds, else the broadcast scalar. -/
theorem where_eval (Vp : Valuation τ sig (Elt Ideal)) :
    StableHlo.after hostOps1_1 Vp (Proc.devRef .tc main_v17)
      = select (Vp (Proc.devRef .tc main_v15)) (Vp (Proc.devRef .tc main_v16)) (broadcastInDim S50000 ![] Facts₀.bcast_S_S50000 (id (Vp (Proc.devRef .tc main_cst_2)))) := by
  after_results_pairs
  rfl
/-- Where the in-degree is positive. -/
theorem W3_v15 (c : Dev nD) : W3 m ρ c (Proc.devRef .tc main_v15) = Cert.ReferenceIdeal.ReadP.val_main_v17 (F := Ideal) (m ((c : Thread nD τ).loc main_arg1)) := by
  show StableHlo.after hostOps1 (W2 m ρ c) (Proc.devRef .tc main_v15) = _
  after_results_pairs
  simp only [W2_arg1 m ρ c] <;> rfl
/-- The inverse square root of the in-degree. -/
theorem W3_v16 (c : Dev nD) : W3 m ρ c (Proc.devRef .tc main_v16) = Cert.ReferenceIdeal.ReadP.val_main_v18 (F := Ideal) (m ((c : Thread nD τ).loc main_arg1)) := by
  show StableHlo.after hostOps1 (W2 m ρ c) (Proc.devRef .tc main_v16) = _
  after_results_pairs
  simp only [W2_arg1 m ρ c] <;> rfl
theorem W3_cst_2 (c : Dev nD) : W3 m ρ c (Proc.devRef .tc main_cst_2) = Cert.ReferenceIdeal.ReadP.val_main_cst_2 (F := Ideal) := by
  show StableHlo.after hostOps1 (W2 m ρ c) (Proc.devRef .tc main_cst_2) = _
  after_results_pairs <;> rfl
theorem W3_v6 (c : Dev nD) : W3 m ρ c (Proc.devRef .tc main_v6) = Cert.ReferenceIdeal.ReadP.val_main_v8 (F := Ideal) (m ((c : Thread nD τ).loc main_arg1)) := by
  show StableHlo.after hostOps1 (W2 m ρ c) (Proc.devRef .tc main_v6) = _
  after_results_pairs
  simp only [W2_arg1 m ρ c] <;> rfl
theorem W3_v9 (c : Dev nD) : W3 m ρ c (Proc.devRef .tc main_v9) = Cert.ReferenceIdeal.ReadP.val_main_v11 (F := Ideal) (m ((c : Thread nD τ).loc main_arg1)) := by
  show StableHlo.after hostOps1 (W2 m ρ c) (Proc.devRef .tc main_v9) = _
  after_results_pairs
  simp only [W2_arg1 m ρ c] <;> rfl
/-- dinv: the inverse square root of the in-degree where it is positive, zero elsewhere. -/
theorem W4_v17 (c : Dev nD) : W4 m ρ c (Proc.devRef .tc main_v17) = Cert.ReferenceIdeal.ReadP.val_main_v19 (F := Ideal) (m ((c : Thread nD τ).loc main_arg1)) := by
  show StableHlo.after hostOps1_1 (W3 m ρ c) (Proc.devRef .tc main_v17) = _
  rw [where_eval, W3_v15, W3_v16, W3_cst_2]
  rfl
theorem W4_v6 (c : Dev nD) : W4 m ρ c (Proc.devRef .tc main_v6) = Cert.ReferenceIdeal.ReadP.val_main_v8 (F := Ideal) (m ((c : Thread nD τ).loc main_arg1)) := by
  show StableHlo.after hostOps1_1 (W3 m ρ c) (Proc.devRef .tc main_v6) = _
  have e_v6 := W3_v6 m ρ c
  generalize W3 m ρ c = Vp at e_v6 ⊢
  after_results_pairs
  exact e_v6
theorem W4_v9 (c : Dev nD) : W4 m ρ c (Proc.devRef .tc main_v9) = Cert.ReferenceIdeal.ReadP.val_main_v11 (F := Ideal) (m ((c : Thread nD τ).loc main_arg1)) := by
  show StableHlo.after hostOps1_1 (W3 m ρ c) (Proc.devRef .tc main_v9) = _
  have e_v9 := W3_v9 m ρ c
  generalize W3 m ρ c = Vp at e_v9 ⊢
  after_results_pairs
  exact e_v9
/-- The normalisation dinv[src]·dinv[dst], one entry per edge. -/
theorem W5_v33 (c : Dev nD) : W5 m ρ c (Proc.devRef .tc main_v33) = Cert.ReferenceIdeal.ReadP.val_main_v35 (F := Ideal) (m ((c : Thread nD τ).loc main_arg1)) := by
  show StableHlo.after hostOps1_2 (W4 m ρ c) (Proc.devRef .tc main_v33) = _
  have e_v17 := W4_v17 m ρ c
  have e_v6 := W4_v6 m ρ c
  have e_v9 := W4_v9 m ρ c
  generalize W4 m ρ c = Vp at e_v17 e_v6 e_v9 ⊢
  after_results_pairs
  rw [e_v17, e_v6, e_v9]
  rfl
theorem W5_arg2 (c : Dev nD) : W5 m ρ c (Proc.devRef .tc main_arg2) = (m ((c : Thread nD τ).loc main_arg2)) := by
  show StableHlo.after hostOps1_2 (StableHlo.after hostOps1_1 (StableHlo.after hostOps1 (W2 m ρ c))) (Proc.devRef .tc main_arg2) = _
  after_results_pairs
  exact W2_arg2 m ρ c
theorem W5_arg5 (c : Dev nD) : W5 m ρ c (Proc.devRef .tc main_arg5) = (m ((c : Thread nD τ).loc main_arg5)) := by
  show StableHlo.after hostOps1_2 (StableHlo.after hostOps1_1 (StableHlo.after hostOps1 (W2 m ρ c))) (Proc.devRef .tc main_arg5) = _
  after_results_pairs
  exact W2_arg5 m ρ c
theorem W5_arg6 (c : Dev nD) : W5 m ρ c (Proc.devRef .tc main_arg6) = (m ((c : Thread nD τ).loc main_arg6)) := by
  show StableHlo.after hostOps1_2 (StableHlo.after hostOps1_1 (StableHlo.after hostOps1 (W2 m ρ c))) (Proc.devRef .tc main_arg6) = _
  after_results_pairs
  exact W2_arg6 m ρ c
theorem W5_arg7 (c : Dev nD) : W5 m ρ c (Proc.devRef .tc main_arg7) = (m ((c : Thread nD τ).loc main_arg7)) := by
  show StableHlo.after hostOps1_2 (StableHlo.after hostOps1_1 (StableHlo.after hostOps1 (W2 m ρ c))) (Proc.devRef .tc main_arg7) = _
  after_results_pairs
  exact W2_arg7 m ρ c
theorem W5_arg8 (c : Dev nD) : W5 m ρ c (Proc.devRef .tc main_arg8) = (m ((c : Thread nD τ).loc main_arg8)) := by
  show StableHlo.after hostOps1_2 (StableHlo.after hostOps1_1 (StableHlo.after hostOps1 (W2 m ρ c))) (Proc.devRef .tc main_arg8) = _
  after_results_pairs
  exact W2_arg8 m ρ c
theorem W5_arg9 (c : Dev nD) : W5 m ρ c (Proc.devRef .tc main_arg9) = (m ((c : Thread nD τ).loc main_arg9)) := by
  show StableHlo.after hostOps1_2 (StableHlo.after hostOps1_1 (StableHlo.after hostOps1 (W2 m ρ c))) (Proc.devRef .tc main_arg9) = _
  after_results_pairs
  exact W2_arg9 m ρ c
theorem W5_arg10 (c : Dev nD) : W5 m ρ c (Proc.devRef .tc main_arg10) = (m ((c : Thread nD τ).loc main_arg10)) := by
  show StableHlo.after hostOps1_2 (StableHlo.after hostOps1_1 (StableHlo.after hostOps1 (W2 m ρ c))) (Proc.devRef .tc main_arg10) = _
  after_results_pairs
  exact W2_arg10 m ρ c
/-- Region 1's output: the first layer's node-feature product. -/
theorem W6_v36 (c : Dev nD) : W6 m ρ c (Proc.devRef .tc main_v36) = Cert.ReferenceIdeal.ReadP.val_main_v38 (F := Ideal) (m ((c : Thread nD τ).loc main_arg0)) (m ((c : Thread nD τ).loc main_arg3)) (m ((c : Thread nD τ).loc main_arg4)) (m ((c : Thread nD τ).loc main_arg5)) := by
  refine (W6_arr m ρ c 2).trans ((Cert.Region1.final (V5 m ρ) c).trans ?_)
  show feat (W5 m ρ c (Proc.devRef .tc main_v2)) (W5 m ρ c (Proc.devRef .tc main_v35)) = _
  rw [W5_v2, W5_v35]
  rfl
theorem W6_v6 (c : Dev nD) : W6 m ρ c (Proc.devRef .tc main_v6) = Cert.ReferenceIdeal.ReadP.val_main_v8 (F := Ideal) (m ((c : Thread nD τ).loc main_arg1)) := (W6_of_ne m ρ c main_v6 (by decide)).trans (W5_v6 m ρ c)
theorem W6_v9 (c : Dev nD) : W6 m ρ c (Proc.devRef .tc main_v9) = Cert.ReferenceIdeal.ReadP.val_main_v11 (F := Ideal) (m ((c : Thread nD τ).loc main_arg1)) := (W6_of_ne m ρ c main_v9 (by decide)).trans (W5_v9 m ρ c)
theorem W6_v33 (c : Dev nD) : W6 m ρ c (Proc.devRef .tc main_v33) = Cert.ReferenceIdeal.ReadP.val_main_v35 (F := Ideal) (m ((c : Thread nD τ).loc main_arg1)) := (W6_of_ne m ρ c main_v33 (by decide)).trans (W5_v33 m ρ c)
theorem W6_arg2 (c : Dev nD) : W6 m ρ c (Proc.devRef .tc main_arg2) = (m ((c : Thread nD τ).loc main_arg2)) := (W6_of_ne m ρ c main_arg2 (by decide)).trans (W5_arg2 m ρ c)
theorem W6_arg5 (c : Dev nD) : W6 m ρ c (Proc.devRef .tc main_arg5) = (m ((c : Thread nD τ).loc main_arg5)) := (W6_of_ne m ρ c main_arg5 (by decide)).trans (W5_arg5 m ρ c)
theorem W6_arg6 (c : Dev nD) : W6 m ρ c (Proc.devRef .tc main_arg6) = (m ((c : Thread nD τ).loc main_arg6)) := (W6_of_ne m ρ c main_arg6 (by decide)).trans (W5_arg6 m ρ c)
theorem W6_arg7 (c : Dev nD) : W6 m ρ c (Proc.devRef .tc main_arg7) = (m ((c : Thread nD τ).loc main_arg7)) := (W6_of_ne m ρ c main_arg7 (by decide)).trans (W5_arg7 m ρ c)
theorem W6_arg8 (c : Dev nD) : W6 m ρ c (Proc.devRef .tc main_arg8) = (m ((c : Thread nD τ).loc main_arg8)) := (W6_of_ne m ρ c main_arg8 (by decide)).trans (W5_arg8 m ρ c)
theorem W6_arg9 (c : Dev nD) : W6 m ρ c (Proc.devRef .tc main_arg9) = (m ((c : Thread nD τ).loc main_arg9)) := (W6_of_ne m ρ c main_arg9 (by decide)).trans (W5_arg9 m ρ c)
theorem W6_arg10 (c : Dev nD) : W6 m ρ c (Proc.devRef .tc main_arg10) = (m ((c : Thread nD τ).loc main_arg10)) := (W6_of_ne m ρ c main_arg10 (by decide)).trans (W5_arg10 m ρ c)

end Cert.Fold

end
-- ==== Proof.Region2.lean ====
/-
  Region 2 (a node-feature product) as one whole-array function. The grid has ten points; point t stages rows
  5000·t … 5000·t + 4999 of the node array, the whole weight matrix, and writes back the same rows of the output. What
  point t writes back is block t of the whole product h·W, because row r of a block is row 5000·t + r of the array and the
  weight block is the matrix itself; the ten blocks cover every row, so the output array ends as h·W of the arrays the
  region found.
-/
import proofs.«127445_j34351148433711_1_alg».proof.Proof.Gen.KernelIdeal.Frame
import proofs.«127445_j34351148433711_1_alg».proof.Proof.Pay
import Idealize.ShloMosaic.Lib.Pipeline.Value

set_option maxRecDepth 16384

noncomputable section

namespace Cert.Region2

open Cert.KernelIdeal Cert.KernelIdeal.Gen Idealize.ShloMosaic Idealize.ShloMosaic.TcCoe Idealize.SL.Sem Cert.Spec Cert.Pay
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten points: the row windows sit at block row t, the weight window at the origin. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the whole product of the arrays the region found. -/
theorem flushed_eq (c : Dev nD) (t : Fin cfg2.N) :
    (dat2 V c).flushed 2 t = ((cfg2.win 2).blk t).view.read (Elt Ideal) (feat (V c main_v53) (V c main_v55)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  obtain ⟨e0, e1, e2, e3, e4, e5⟩ := idx_facts t
  funext j
  show k2_pay1 (iblk2 V c 0 t) (iblk2 V c 1 t) j = feat (V c main_v53) (V c main_v55) (((cfg2.win 2).blk t).view.emb j)
  refine (feat_pay2 (iblk2 V c 0 t) (iblk2 V c 1 t) j).trans (Eq.trans ?_ (feat_apply (V c main_v53) (V c main_v55) (((cfg2.win 2).blk t).view.emb j)).symm)
  refine Finset.sum_congr rfl fun k _ => ?_
  have h0 : iblk2 V c 0 t (lx j k) = V c main_v53 (lx (((cfg2.win 2).blk t).view.emb j) k) := by
    show V c main_v53 (((cfg2.win 0).blk t).view.emb (lx j k)) = _
    refine congrArg (V c main_v53) (funext fun a => Fin.ext ?_)
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  have h1 : iblk2 V c 1 t (rx j k) = V c main_v55 (rx (((cfg2.win 2).blk t).view.emb j) k) := by
    show V c main_v55 (((cfg2.win 1).blk t).view.emb (rx j k)) = _
    refine congrArg (V c main_v55) (funext fun a => Fin.ext ?_)
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega
  rw [h0, h1]

/-- An index of the output array is in point t's block iff each coordinate is in the block's range on its axis. -/
theorem mem_blk (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v56).slice (win2_2.rect t)).set ↔ _
  rw [View.set_slice_whole, Rect.mem_set_unit]
  exact Iff.rfl

/-- Every row is in some point's block: row r in that of point r / 5000. -/
theorem cover (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  have hN : (i 0).val / 5000 < cfg2.N := by rw [show cfg2.N = 10 from N_2]; omega
  obtain ⟨e0, e1, e2, e3, e4, e5⟩ := idx_facts ⟨(i 0).val / 5000, hN⟩
  refine ⟨⟨(i 0).val / 5000, hN⟩, flush2_2 _, ?_⟩
  rw [mem_blk]
  intro a
  match a with
  | ⟨0, _⟩ =>
    show win2_2.index ⟨(i 0).val / 5000, hN⟩ (0 : Fin 2) * 5000 ≤ (i 0).val ∧ (i 0).val < win2_2.index ⟨(i 0).val / 5000, hN⟩ (0 : Fin 2) * 5000 + 5000
    rw [e4]; show (i 0).val / 5000 * 5000 ≤ (i 0).val ∧ (i 0).val < (i 0).val / 5000 * 5000 + 5000; omega
  | ⟨1, _⟩ =>
    show win2_2.index ⟨(i 0).val / 5000, hN⟩ (1 : Fin 2) * 128 ≤ (i 1).val ∧ (i 1).val < win2_2.index ⟨(i 0).val / 5000, hN⟩ (1 : Fin 2) * 128 + 128
    rw [e5]; omega

/-- The output array after the region: the whole product of the arrays the region found. -/
theorem final (c : Dev nD) : (dat2 V c).arrAt 2 cfg2.N = feat (V c main_v53) (V c main_v55) :=
  (dat2 V c).arrAt_eq_of_cover 2 (feat (V c main_v53) (V c main_v55)) (fun t _ => flushed_eq V c t) (cover)

end Cert.Region2

end
-- ==== Proof.FoldC.lean ====
/-
  The boundary contents up to the end of region 2: the first layer's message passing on the host, then the second layer's
  node-feature product in region 2.
-/
import proofs.«127445_j34351148433711_1_alg».proof.Proof.FoldB
import proofs.«127445_j34351148433711_1_alg».proof.Proof.Region2

set_option maxRecDepth 16384
set_option maxHeartbeats 4000000

noncomputable section

namespace Cert.Fold

open Cert.KernelIdeal Cert.KernelIdeal.Gen Idealize.ShloMosaic Idealize.ShloMosaic.TcCoe Idealize.SL.Sem Idealize.ShloMosaic.StableHlo Cert.Spec

variable (m : (ℓ : Loc nD τ sig) → Buf (Elt Ideal) ℓ) (ρ : Dev nD → PrngReg)

/-- The layer's message passing: rows gathered at the sources, scaled, summed at the destinations, plus the bias. -/
theorem W7_v53 (c : Dev nD) : W7 m ρ c (Proc.devRef .tc main_v53) = Cert.ReferenceIdeal.ReadP.val_main_v55 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  show StableHlo.after hostOps2 (W6 m ρ c) (Proc.devRef .tc main_v53) = _
  after_results_pairs
  simp only [W6_v36 m ρ c, W6_v6 m ρ c, W6_v9 m ρ c, W6_v33 m ρ c, W6_arg6 m ρ c] <;> rfl
theorem W7_v55 (c : Dev nD) : W7 m ρ c (Proc.devRef .tc main_v55) = Cert.ReferenceIdeal.ReadP.val_main_v57 (F := Ideal) (m ((c : Thread nD τ).loc main_arg5)) := by
  show StableHlo.after hostOps2 (W6 m ρ c) (Proc.devRef .tc main_v55) = _
  after_results_pairs
  simp only [W6_arg5 m ρ c] <;> rfl
theorem W7_v6 (c : Dev nD) : W7 m ρ c (Proc.devRef .tc main_v6) = Cert.ReferenceIdeal.ReadP.val_main_v8 (F := Ideal) (m ((c : Thread nD τ).loc main_arg1)) := by
  show StableHlo.after hostOps2 (W6 m ρ c) (Proc.devRef .tc main_v6) = _
  after_results_pairs
  exact W6_v6 m ρ c
theorem W7_v9 (c : Dev nD) : W7 m ρ c (Proc.devRef .tc main_v9) = Cert.ReferenceIdeal.ReadP.val_main_v11 (F := Ideal) (m ((c : Thread nD τ).loc main_arg1)) := by
  show StableHlo.after hostOps2 (W6 m ρ c) (Proc.devRef .tc main_v9) = _
  after_results_pairs
  exact W6_v9 m ρ c
theorem W7_v33 (c : Dev nD) : W7 m ρ c (Proc.devRef .tc main_v33) = Cert.ReferenceIdeal.ReadP.val_main_v35 (F := Ideal) (m ((c : Thread nD τ).loc main_arg1)) := by
  show StableHlo.after hostOps2 (W6 m ρ c) (Proc.devRef .tc main_v33) = _
  after_results_pairs
  exact W6_v33 m ρ c
theorem W7_arg2 (c : Dev nD) : W7 m ρ c (Proc.devRef .tc main_arg2) = (m ((c : Thread nD τ).loc main_arg2)) := by
  show StableHlo.after hostOps2 (W6 m ρ c) (Proc.devRef .tc main_arg2) = _
  after_results_pairs
  exact W6_arg2 m ρ c
theorem W7_arg5 (c : Dev nD) : W7 m ρ c (Proc.devRef .tc main_arg5) = (m ((c : Thread nD τ).loc main_arg5)) := by
  show StableHlo.after hostOps2 (W6 m ρ c) (Proc.devRef .tc main_arg5) = _
  after_results_pairs
  exact W6_arg5 m ρ c
theorem W7_arg6 (c : Dev nD) : W7 m ρ c (Proc.devRef .tc main_arg6) = (m ((c : Thread nD τ).loc main_arg6)) := by
  show StableHlo.after hostOps2 (W6 m ρ c) (Proc.devRef .tc main_arg6) = _
  after_results_pairs
  exact W6_arg6 m ρ c
theorem W7_arg7 (c : Dev nD) : W7 m ρ c (Proc.devRef .tc main_arg7) = (m ((c : Thread nD τ).loc main_arg7)) := by
  show StableHlo.after hostOps2 (W6 m ρ c) (Proc.devRef .tc main_arg7) = _
  after_results_pairs
  exact W6_arg7 m ρ c
theorem W7_arg8 (c : Dev nD) : W7 m ρ c (Proc.devRef .tc main_arg8) = (m ((c : Thread nD τ).loc main_arg8)) := by
  show StableHlo.after hostOps2 (W6 m ρ c) (Proc.devRef .tc main_arg8) = _
  after_results_pairs
  exact W6_arg8 m ρ c
theorem W7_arg9 (c : Dev nD) : W7 m ρ c (Proc.devRef .tc main_arg9) = (m ((c : Thread nD τ).loc main_arg9)) := by
  show StableHlo.after hostOps2 (W6 m ρ c) (Proc.devRef .tc main_arg9) = _
  after_results_pairs
  exact W6_arg9 m ρ c
theorem W7_arg10 (c : Dev nD) : W7 m ρ c (Proc.devRef .tc main_arg10) = (m ((c : Thread nD τ).loc main_arg10)) := by
  show StableHlo.after hostOps2 (W6 m ρ c) (Proc.devRef .tc main_arg10) = _
  after_results_pairs
  exact W6_arg10 m ρ c
/-- Region 2's output: the next layer's node-feature product. -/
theorem W8_v56 (c : Dev nD) : W8 m ρ c (Proc.devRef .tc main_v56) = Cert.ReferenceIdeal.ReadP.val_main_v58 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W8_arr m ρ c 2).trans ((Cert.Region2.final (V7 m ρ) c).trans ?_)
  show feat (W7 m ρ c (Proc.devRef .tc main_v53)) (W7 m ρ c (Proc.devRef .tc main_v55)) = _
  rw [W7_v53, W7_v55]
  rfl
theorem W8_v6 (c : Dev nD) : W8 m ρ c (Proc.devRef .tc main_v6) = Cert.ReferenceIdeal.ReadP.val_main_v8 (F := Ideal) (m ((c : Thread nD τ).loc main_arg1)) := (W8_of_ne m ρ c main_v6 (by decide)).trans (W7_v6 m ρ c)
theorem W8_v9 (c : Dev nD) : W8 m ρ c (Proc.devRef .tc main_v9) = Cert.ReferenceIdeal.ReadP.val_main_v11 (F := Ideal) (m ((c : Thread nD τ).loc main_arg1)) := (W8_of_ne m ρ c main_v9 (by decide)).trans (W7_v9 m ρ c)
theorem W8_v33 (c : Dev nD) : W8 m ρ c (Proc.devRef .tc main_v33) = Cert.ReferenceIdeal.ReadP.val_main_v35 (F := Ideal) (m ((c : Thread nD τ).loc main_arg1)) := (W8_of_ne m ρ c main_v33 (by decide)).trans (W7_v33 m ρ c)
theorem W8_arg2 (c : Dev nD) : W8 m ρ c (Proc.devRef .tc main_arg2) = (m ((c : Thread nD τ).loc main_arg2)) := (W8_of_ne m ρ c main_arg2 (by decide)).trans (W7_arg2 m ρ c)
theorem W8_arg5 (c : Dev nD) : W8 m ρ c (Proc.devRef .tc main_arg5) = (m ((c : Thread nD τ).loc main_arg5)) := (W8_of_ne m ρ c main_arg5 (by decide)).trans (W7_arg5 m ρ c)
theorem W8_arg6 (c : Dev nD) : W8 m ρ c (Proc.devRef .tc main_arg6) = (m ((c : Thread nD τ).loc main_arg6)) := (W8_of_ne m ρ c main_arg6 (by decide)).trans (W7_arg6 m ρ c)
theorem W8_arg7 (c : Dev nD) : W8 m ρ c (Proc.devRef .tc main_arg7) = (m ((c : Thread nD τ).loc main_arg7)) := (W8_of_ne m ρ c main_arg7 (by decide)).trans (W7_arg7 m ρ c)
theorem W8_arg8 (c : Dev nD) : W8 m ρ c (Proc.devRef .tc main_arg8) = (m ((c : Thread nD τ).loc main_arg8)) := (W8_of_ne m ρ c main_arg8 (by decide)).trans (W7_arg8 m ρ c)
theorem W8_arg9 (c : Dev nD) : W8 m ρ c (Proc.devRef .tc main_arg9) = (m ((c : Thread nD τ).loc main_arg9)) := (W8_of_ne m ρ c main_arg9 (by decide)).trans (W7_arg9 m ρ c)
theorem W8_arg10 (c : Dev nD) : W8 m ρ c (Proc.devRef .tc main_arg10) = (m ((c : Thread nD τ).loc main_arg10)) := (W8_of_ne m ρ c main_arg10 (by decide)).trans (W7_arg10 m ρ c)

end Cert.Fold

end
-- ==== Proof.Region3.lean ====
/-
  Region 3 (a node-feature product) as one whole-array function. The grid has ten points; point t stages rows
  5000·t … 5000·t + 4999 of the node array, the whole weight matrix, and writes back the same rows of the output. What
  point t writes back is block t of the whole product h·W, because row r of a block is row 5000·t + r of the array and the
  weight block is the matrix itself; the ten blocks cover every row, so the output array ends as h·W of the arrays the
  region found.
-/
import proofs.«127445_j34351148433711_1_alg».proof.Proof.Gen.KernelIdeal.Frame
import proofs.«127445_j34351148433711_1_alg».proof.Proof.Pay
import Idealize.ShloMosaic.Lib.Pipeline.Value

set_option maxRecDepth 16384

noncomputable section

namespace Cert.Region3

open Cert.KernelIdeal Cert.KernelIdeal.Gen Idealize.ShloMosaic Idealize.ShloMosaic.TcCoe Idealize.SL.Sem Cert.Spec Cert.Pay
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten points: the row windows sit at block row t, the weight window at the origin. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of the whole product of the arrays the region found. -/
theorem flushed_eq (c : Dev nD) (t : Fin cfg3.N) :
    (dat3 V c).flushed 2 t = ((cfg3.win 2).blk t).view.read (Elt Ideal) (feat (V c main_v73) (V c main_v75)) := by
  show (cfg3.win 2).cut (grid3.coords t) ((dat3 V c).after 2 t) = _
  rw [after3_2]
  unfold out3_2
  rw [View.canon_unit_zero hz]
  simp only [View.ld_unit_zero (S := S5000x128) hz, View.ld_unit_zero (S := S128x128) hz]
  obtain ⟨e0, e1, e2, e3, e4, e5⟩ := idx_facts t
  funext j
  show k3_pay1 (iblk3 V c 0 t) (iblk3 V c 1 t) j = feat (V c main_v73) (V c main_v75) (((cfg3.win 2).blk t).view.emb j)
  refine (feat_pay3 (iblk3 V c 0 t) (iblk3 V c 1 t) j).trans (Eq.trans ?_ (feat_apply (V c main_v73) (V c main_v75) (((cfg3.win 2).blk t).view.emb j)).symm)
  refine Finset.sum_congr rfl fun k _ => ?_
  have h0 : iblk3 V c 0 t (lx j k) = V c main_v73 (lx (((cfg3.win 2).blk t).view.emb j) k) := by
    show V c main_v73 (((cfg3.win 0).blk t).view.emb (lx j k)) = _
    refine congrArg (V c main_v73) (funext fun a => Fin.ext ?_)
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 128 + 1 * k.val = k.val; omega
  have h1 : iblk3 V c 1 t (rx j k) = V c main_v75 (rx (((cfg3.win 2).blk t).view.emb j) k) := by
    show V c main_v75 (((cfg3.win 1).blk t).view.emb (rx j k)) = _
    refine congrArg (V c main_v75) (funext fun a => Fin.ext ?_)
    match a with
    | ⟨0, _⟩ => show win3_1.index t (0 : Fin 2) * 128 + 1 * k.val = k.val; omega
    | ⟨1, _⟩ => show win3_1.index t (1 : Fin 2) * 128 + 1 * (j 1).val = win3_2.index t (1 : Fin 2) * 128 + 1 * (j 1).val; omega
  rw [h0, h1]

/-- An index of the output array is in point t's block iff each coordinate is in the block's range on its axis. -/
theorem mem_blk (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v76).slice (win3_2.rect t)).set ↔ _
  rw [View.set_slice_whole, Rect.mem_set_unit]
  exact Iff.rfl

/-- Every row is in some point's block: row r in that of point r / 5000. -/
theorem cover (i : S50000x128.Idx) : ∃ t : Fin cfg3.N, (cfg3.win 2).flush t = true ∧ i ∈ ((cfg3.win 2).blk t).view.set := by
  have hi0 : (i 0).val < 50000 := (i 0).isLt
  have hi1 : (i 1).val < 128 := (i 1).isLt
  have hN : (i 0).val / 5000 < cfg3.N := by rw [show cfg3.N = 10 from N_3]; omega
  obtain ⟨e0, e1, e2, e3, e4, e5⟩ := idx_facts ⟨(i 0).val / 5000, hN⟩
  refine ⟨⟨(i 0).val / 5000, hN⟩, flush3_2 _, ?_⟩
  rw [mem_blk]
  intro a
  match a with
  | ⟨0, _⟩ =>
    show win3_2.index ⟨(i 0).val / 5000, hN⟩ (0 : Fin 2) * 5000 ≤ (i 0).val ∧ (i 0).val < win3_2.index ⟨(i 0).val / 5000, hN⟩ (0 : Fin 2) * 5000 + 5000
    rw [e4]; show (i 0).val / 5000 * 5000 ≤ (i 0).val ∧ (i 0).val < (i 0).val / 5000 * 5000 + 5000; omega
  | ⟨1, _⟩ =>
    show win3_2.index ⟨(i 0).val / 5000, hN⟩ (1 : Fin 2) * 128 ≤ (i 1).val ∧ (i 1).val < win3_2.index ⟨(i 0).val / 5000, hN⟩ (1 : Fin 2) * 128 + 128
    rw [e5]; omega

/-- The output array after the region: the whole product of the arrays the region found. -/
theorem final (c : Dev nD) : (dat3 V c).arrAt 2 cfg3.N = feat (V c main_v73) (V c main_v75) :=
  (dat3 V c).arrAt_eq_of_cover 2 (feat (V c main_v73) (V c main_v75)) (fun t _ => flushed_eq V c t) (cover)

end Cert.Region3

end
-- ==== Proof.FoldD.lean ====
/-
  The boundary contents up to the end of region 3: the second layer's message passing on the host, then the third layer's
  node-feature product in region 3.
-/
import proofs.«127445_j34351148433711_1_alg».proof.Proof.FoldC
import proofs.«127445_j34351148433711_1_alg».proof.Proof.Region3

set_option maxRecDepth 16384
set_option maxHeartbeats 4000000

noncomputable section

namespace Cert.Fold

open Cert.KernelIdeal Cert.KernelIdeal.Gen Idealize.ShloMosaic Idealize.ShloMosaic.TcCoe Idealize.SL.Sem Idealize.ShloMosaic.StableHlo Cert.Spec

variable (m : (ℓ : Loc nD τ sig) → Buf (Elt Ideal) ℓ) (ρ : Dev nD → PrngReg)

/-- The layer's message passing: rows gathered at the sources, scaled, summed at the destinations, plus the bias. -/
theorem W9_v73 (c : Dev nD) : W9 m ρ c (Proc.devRef .tc main_v73) = Cert.ReferenceIdeal.ReadP.val_main_v75 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  show StableHlo.after hostOps3 (W8 m ρ c) (Proc.devRef .tc main_v73) = _
  after_results_pairs
  simp only [W8_v56 m ρ c, W8_v6 m ρ c, W8_v9 m ρ c, W8_v33 m ρ c, W8_arg6 m ρ c] <;> rfl
theorem W9_v75 (c : Dev nD) : W9 m ρ c (Proc.devRef .tc main_v75) = Cert.ReferenceIdeal.ReadP.val_main_v77 (F := Ideal) (m ((c : Thread nD τ).loc main_arg5)) := by
  show StableHlo.after hostOps3 (W8 m ρ c) (Proc.devRef .tc main_v75) = _
  after_results_pairs
  simp only [W8_arg5 m ρ c] <;> rfl
theorem W9_v6 (c : Dev nD) : W9 m ρ c (Proc.devRef .tc main_v6) = Cert.ReferenceIdeal.ReadP.val_main_v8 (F := Ideal) (m ((c : Thread nD τ).loc main_arg1)) := by
  show StableHlo.after hostOps3 (W8 m ρ c) (Proc.devRef .tc main_v6) = _
  after_results_pairs
  exact W8_v6 m ρ c
theorem W9_v9 (c : Dev nD) : W9 m ρ c (Proc.devRef .tc main_v9) = Cert.ReferenceIdeal.ReadP.val_main_v11 (F := Ideal) (m ((c : Thread nD τ).loc main_arg1)) := by
  show StableHlo.after hostOps3 (W8 m ρ c) (Proc.devRef .tc main_v9) = _
  after_results_pairs
  exact W8_v9 m ρ c
theorem W9_v33 (c : Dev nD) : W9 m ρ c (Proc.devRef .tc main_v33) = Cert.ReferenceIdeal.ReadP.val_main_v35 (F := Ideal) (m ((c : Thread nD τ).loc main_arg1)) := by
  show StableHlo.after hostOps3 (W8 m ρ c) (Proc.devRef .tc main_v33) = _
  after_results_pairs
  exact W8_v33 m ρ c
theorem W9_arg2 (c : Dev nD) : W9 m ρ c (Proc.devRef .tc main_arg2) = (m ((c : Thread nD τ).loc main_arg2)) := by
  show StableHlo.after hostOps3 (W8 m ρ c) (Proc.devRef .tc main_arg2) = _
  after_results_pairs
  exact W8_arg2 m ρ c
theorem W9_arg6 (c : Dev nD) : W9 m ρ c (Proc.devRef .tc main_arg6) = (m ((c : Thread nD τ).loc main_arg6)) := by
  show StableHlo.after hostOps3 (W8 m ρ c) (Proc.devRef .tc main_arg6) = _
  after_results_pairs
  exact W8_arg6 m ρ c
theorem W9_arg7 (c : Dev nD) : W9 m ρ c (Proc.devRef .tc main_arg7) = (m ((c : Thread nD τ).loc main_arg7)) := by
  show StableHlo.after hostOps3 (W8 m ρ c) (Proc.devRef .tc main_arg7) = _
  after_results_pairs
  exact W8_arg7 m ρ c
theorem W9_arg8 (c : Dev nD) : W9 m ρ c (Proc.devRef .tc main_arg8) = (m ((c : Thread nD τ).loc main_arg8)) := by
  show StableHlo.after hostOps3 (W8 m ρ c) (Proc.devRef .tc main_arg8) = _
  after_results_pairs
  exact W8_arg8 m ρ c
theorem W9_arg9 (c : Dev nD) : W9 m ρ c (Proc.devRef .tc main_arg9) = (m ((c : Thread nD τ).loc main_arg9)) := by
  show StableHlo.after hostOps3 (W8 m ρ c) (Proc.devRef .tc main_arg9) = _
  after_results_pairs
  exact W8_arg9 m ρ c
theorem W9_arg10 (c : Dev nD) : W9 m ρ c (Proc.devRef .tc main_arg10) = (m ((c : Thread nD τ).loc main_arg10)) := by
  show StableHlo.after hostOps3 (W8 m ρ c) (Proc.devRef .tc main_arg10) = _
  after_results_pairs
  exact W8_arg10 m ρ c
/-- Region 3's output: the next layer's node-feature product. -/
theorem W10_v76 (c : Dev nD) : W10 m ρ c (Proc.devRef .tc main_v76) = Cert.ReferenceIdeal.ReadP.val_main_v78 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W10_arr m ρ c 2).trans ((Cert.Region3.final (V9 m ρ) c).trans ?_)
  show feat (W9 m ρ c (Proc.devRef .tc main_v73)) (W9 m ρ c (Proc.devRef .tc main_v75)) = _
  rw [W9_v73, W9_v75]
  rfl
theorem W10_v6 (c : Dev nD) : W10 m ρ c (Proc.devRef .tc main_v6) = Cert.ReferenceIdeal.ReadP.val_main_v8 (F := Ideal) (m ((c : Thread nD τ).loc main_arg1)) := (W10_of_ne m ρ c main_v6 (by decide)).trans (W9_v6 m ρ c)
theorem W10_v9 (c : Dev nD) : W10 m ρ c (Proc.devRef .tc main_v9) = Cert.ReferenceIdeal.ReadP.val_main_v11 (F := Ideal) (m ((c : Thread nD τ).loc main_arg1)) := (W10_of_ne m ρ c main_v9 (by decide)).trans (W9_v9 m ρ c)
theorem W10_v33 (c : Dev nD) : W10 m ρ c (Proc.devRef .tc main_v33) = Cert.ReferenceIdeal.ReadP.val_main_v35 (F := Ideal) (m ((c : Thread nD τ).loc main_arg1)) := (W10_of_ne m ρ c main_v33 (by decide)).trans (W9_v33 m ρ c)
theorem W10_arg2 (c : Dev nD) : W10 m ρ c (Proc.devRef .tc main_arg2) = (m ((c : Thread nD τ).loc main_arg2)) := (W10_of_ne m ρ c main_arg2 (by decide)).trans (W9_arg2 m ρ c)
theorem W10_arg6 (c : Dev nD) : W10 m ρ c (Proc.devRef .tc main_arg6) = (m ((c : Thread nD τ).loc main_arg6)) := (W10_of_ne m ρ c main_arg6 (by decide)).trans (W9_arg6 m ρ c)
theorem W10_arg7 (c : Dev nD) : W10 m ρ c (Proc.devRef .tc main_arg7) = (m ((c : Thread nD τ).loc main_arg7)) := (W10_of_ne m ρ c main_arg7 (by decide)).trans (W9_arg7 m ρ c)
theorem W10_arg8 (c : Dev nD) : W10 m ρ c (Proc.devRef .tc main_arg8) = (m ((c : Thread nD τ).loc main_arg8)) := (W10_of_ne m ρ c main_arg8 (by decide)).trans (W9_arg8 m ρ c)
theorem W10_arg9 (c : Dev nD) : W10 m ρ c (Proc.devRef .tc main_arg9) = (m ((c : Thread nD τ).loc main_arg9)) := (W10_of_ne m ρ c main_arg9 (by decide)).trans (W9_arg9 m ρ c)
theorem W10_arg10 (c : Dev nD) : W10 m ρ c (Proc.devRef .tc main_arg10) = (m ((c : Thread nD τ).loc main_arg10)) := (W10_of_ne m ρ c main_arg10 (by decide)).trans (W9_arg10 m ρ c)

end Cert.Fold

end
-- ==== Proof.Region4.lean ====
/-
  Region 4 (the readout) as one whole-array function. The grid has one point and every window is its whole array, so
  the body reads the pooled features, both weight matrices and both bias rows as they are and writes the whole output:
  tanh(p·W1 + b1)·W2 + b2 of the arrays the region found.
-/
import proofs.«127445_j34351148433711_1_alg».proof.Proof.Gen.KernelIdeal.Frame
import proofs.«127445_j34351148433711_1_alg».proof.Proof.Pay
import Idealize.ShloMosaic.Lib.Pipeline.Value

set_option maxRecDepth 16384

noncomputable section

namespace Cert.Region4

open Cert.KernelIdeal Cert.KernelIdeal.Gen Idealize.ShloMosaic Idealize.ShloMosaic.TcCoe Idealize.SL.Sem Cert.Spec Cert.Pay
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps at the one point: every window sits at the origin. -/
theorem idx_facts : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0 :=
  (by decide +kernel : ∀ t : Fin grid4.N, _)

/-- What the one point writes back is the whole readout of the arrays the region found. -/
theorem flushed_eq (c : Dev nD) (t : Fin cfg4.N) :
    (dat4 V c).flushed 5 t = ((cfg4.win 5).blk t).view.read (Elt Ideal)
      (readout (V c main_v96) (V c main_arg7) (V c main_v97) (V c main_arg9) (V c main_v98)) := by
  show (cfg4.win 5).cut (grid4.coords t) ((dat4 V c).after 5 t) = _
  rw [after4_5]
  unfold out4_5
  rw [View.canon_unit_zero hz]
  simp only [View.ld_unit_zero (S := S32x128) hz, View.ld_unit_zero (S := S128x128) hz, View.ld_unit_zero (S := S1x128) hz,
    View.ld_unit_zero (S := S128x1) hz, View.ld_unit_zero (S := S1x1) hz]
  obtain ⟨e00, e01, e10, e11, e20, e21, e30, e31, e40, e41, e50, e51⟩ := idx_facts t
  funext j
  show k4_pay1 (iblk4 V c 0 t) (iblk4 V c 1 t) (iblk4 V c 2 t) (iblk4 V c 3 t) (iblk4 V c 4 t) j
    = readout (V c main_v96) (V c main_arg7) (V c main_v97) (V c main_arg9) (V c main_v98) (((cfg4.win 5).blk t).view.emb j)
  refine (readout_pay (iblk4 V c 0 t) (iblk4 V c 1 t) (iblk4 V c 2 t) (iblk4 V c 3 t) (iblk4 V c 4 t) j).trans
    (Eq.trans ?_ (readout_apply (V c main_v96) (V c main_arg7) (V c main_v97) (V c main_arg9) (V c main_v98) (((cfg4.win 5).blk t).view.emb j)).symm)
  have h4 : iblk4 V c 4 t (rx j (0 : Fin 1)) = V c main_v98 (rx (((cfg4.win 5).blk t).view.emb j) (0 : Fin 1)) := by
    show V c main_v98 (((cfg4.win 4).blk t).view.emb (rx j (0 : Fin 1))) = _
    refine congrArg (V c main_v98) (funext fun a => Fin.ext ?_)
    match a with
    | ⟨0, _⟩ => show win4_4.index t (0 : Fin 2) * 1 + 1 * 0 = 0; omega
    | ⟨1, _⟩ => show win4_4.index t (1 : Fin 2) * 1 + 1 * (j 1).val = win4_5.index t (1 : Fin 2) * 1 + 1 * (j 1).val; omega
  refine congrArg₂ (· + ·) (Finset.sum_congr rfl fun k _ => ?_) h4
  have h3 : iblk4 V c 3 t (rx j k) = V c main_arg9 (rx (((cfg4.win 5).blk t).view.emb j) k) := by
    show V c main_arg9 (((cfg4.win 3).blk t).view.emb (rx j k)) = _
    refine congrArg (V c main_arg9) (funext fun a => Fin.ext ?_)
    match a with
    | ⟨0, _⟩ => show win4_3.index t (0 : Fin 2) * 128 + 1 * k.val = k.val; omega
    | ⟨1, _⟩ => show win4_3.index t (1 : Fin 2) * 1 + 1 * (j 1).val = win4_5.index t (1 : Fin 2) * 1 + 1 * (j 1).val; omega
  have h2 : iblk4 V c 2 t (rx (lx j k) (0 : Fin 1)) = V c main_v97 (rx (lx (((cfg4.win 5).blk t).view.emb j) k) (0 : Fin 1)) := by
    show V c main_v97 (((cfg4.win 2).blk t).view.emb (rx (lx j k) (0 : Fin 1))) = _
    refine congrArg (V c main_v97) (funext fun a => Fin.ext ?_)
    match a with
    | ⟨0, _⟩ => show win4_2.index t (0 : Fin 2) * 1 + 1 * 0 = 0; omega
    | ⟨1, _⟩ => show win4_2.index t (1 : Fin 2) * 128 + 1 * k.val = k.val; omega
  rw [h2, h3]
  refine congrArg (· * _) (congrArg Ideal.tanh (congrArg (· + _) (Finset.sum_congr rfl fun k' _ => ?_)))
  have h0 : iblk4 V c 0 t (lx (lx j k) k') = V c main_v96 (lx (lx (((cfg4.win 5).blk t).view.emb j) k) k') := by
    show V c main_v96 (((cfg4.win 0).blk t).view.emb (lx (lx j k) k')) = _
    refine congrArg (V c main_v96) (funext fun a => Fin.ext ?_)
    match a with
    | ⟨0, _⟩ => show win4_0.index t (0 : Fin 2) * 32 + 1 * (j 0).val = win4_5.index t (0 : Fin 2) * 32 + 1 * (j 0).val; omega
    | ⟨1, _⟩ => show win4_0.index t (1 : Fin 2) * 128 + 1 * k'.val = k'.val; omega
  have h1 : iblk4 V c 1 t (rx (lx j k) k') = V c main_arg7 (rx (lx (((cfg4.win 5).blk t).view.emb j) k) k') := by
    show V c main_arg7 (((cfg4.win 1).blk t).view.emb (rx (lx j k) k')) = _
    refine congrArg (V c main_arg7) (funext fun a => Fin.ext ?_)
    match a with
    | ⟨0, _⟩ => show win4_1.index t (0 : Fin 2) * 128 + 1 * k'.val = k'.val; omega
    | ⟨1, _⟩ => show win4_1.index t (1 : Fin 2) * 128 + 1 * k.val = k.val; omega
  rw [h0, h1]

/-- An index of the output array is in the one point's block iff each coordinate is in the block's range on its axis. -/
theorem mem_blk (t : Fin cfg4.N) (i : S32x1.Idx) :
    i ∈ ((cfg4.win 5).blk t).view.set ↔ ∀ a : Fin 2, win4_5.index t a * S32x1.size a ≤ (i a).val ∧ (i a).val < win4_5.index t a * S32x1.size a + S32x1.size a := by
  show i ∈ ((View.whole main_v99).slice (win4_5.rect t)).set ↔ _
  rw [View.set_slice_whole, Rect.mem_set_unit]
  exact Iff.rfl

/-- The one block is the whole output. -/
theorem cover (i : S32x1.Idx) : ∃ t : Fin cfg4.N, (cfg4.win 5).flush t = true ∧ i ∈ ((cfg4.win 5).blk t).view.set := by
  have hi0 : (i 0).val < 32 := (i 0).isLt
  have hi1 : (i 1).val < 1 := (i 1).isLt
  obtain ⟨e00, e01, e10, e11, e20, e21, e30, e31, e40, e41, e50, e51⟩ := idx_facts t4_0
  refine ⟨t4_0, flush4_5 _, ?_⟩
  rw [mem_blk]
  intro a
  match a with
  | ⟨0, _⟩ =>
    show win4_5.index t4_0 (0 : Fin 2) * 32 ≤ (i 0).val ∧ (i 0).val < win4_5.index t4_0 (0 : Fin 2) * 32 + 32
    rw [e50]; omega
  | ⟨1, _⟩ =>
    show win4_5.index t4_0 (1 : Fin 2) * 1 ≤ (i 1).val ∧ (i 1).val < win4_5.index t4_0 (1 : Fin 2) * 1 + 1
    rw [e51]; omega

/-- The output array after the region: the readout of the arrays the region found. -/
theorem final (c : Dev nD) : (dat4 V c).arrAt 5 cfg4.N
    = readout (V c main_v96) (V c main_arg7) (V c main_v97) (V c main_arg9) (V c main_v98) :=
  (dat4 V c).arrAt_eq_of_cover 5 (readout (V c main_v96) (V c main_arg7) (V c main_v97) (V c main_arg9) (V c main_v98))
    (fun t _ => flushed_eq V c t) (cover)

end Cert.Region4

end
-- ==== Proof.FoldE.lean ====
/-
  The last boundary: the third layer's message passing and the sum of node rows per graph on the host, then the readout in
  region 4. The result buffer ends at the reference's last stage of the launch arguments.
-/
import proofs.«127445_j34351148433711_1_alg».proof.Proof.FoldD
import proofs.«127445_j34351148433711_1_alg».proof.Proof.Region4

set_option maxRecDepth 16384
set_option maxHeartbeats 4000000

noncomputable section

namespace Cert.Fold

open Cert.KernelIdeal Cert.KernelIdeal.Gen Idealize.ShloMosaic Idealize.ShloMosaic.TcCoe Idealize.SL.Sem Idealize.ShloMosaic.StableHlo Cert.Spec

variable (m : (ℓ : Loc nD τ sig) → Buf (Elt Ideal) ℓ) (ρ : Dev nD → PrngReg)

/-- The pooled features: node rows summed per graph. -/
theorem W11_v96 (c : Dev nD) : W11 m ρ c (Proc.devRef .tc main_v96) = Cert.ReferenceIdeal.ReadP.val_main_v98 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps4 (W10 m ρ c) (Proc.devRef .tc main_v96) = _
  after_results_pairs
  simp only [W10_v76 m ρ c, W10_v6 m ρ c, W10_v9 m ρ c, W10_v33 m ρ c, W10_arg6 m ρ c, W10_arg2 m ρ c] <;> rfl
theorem W11_v97 (c : Dev nD) : W11 m ρ c (Proc.devRef .tc main_v97) = Cert.ReferenceIdeal.ReadP.val_main_v100 (F := Ideal) (m ((c : Thread nD τ).loc main_arg8)) := by
  show StableHlo.after hostOps4 (W10 m ρ c) (Proc.devRef .tc main_v97) = _
  after_results_pairs
  rw [W10_arg8 m ρ c]
  exact Cert.Rows.row128 (m ((c : Thread nD τ).loc main_arg8))
theorem W11_v98 (c : Dev nD) : W11 m ρ c (Proc.devRef .tc main_v98) = Cert.ReferenceIdeal.ReadP.val_main_v105 (F := Ideal) (m ((c : Thread nD τ).loc main_arg10)) := by
  show StableHlo.after hostOps4 (W10 m ρ c) (Proc.devRef .tc main_v98) = _
  after_results_pairs
  rw [W10_arg10 m ρ c]
  exact Cert.Rows.one1 (m ((c : Thread nD τ).loc main_arg10))
theorem W11_arg7 (c : Dev nD) : W11 m ρ c (Proc.devRef .tc main_arg7) = (m ((c : Thread nD τ).loc main_arg7)) := by
  show StableHlo.after hostOps4 (W10 m ρ c) (Proc.devRef .tc main_arg7) = _
  after_results_pairs
  exact W10_arg7 m ρ c
theorem W11_arg9 (c : Dev nD) : W11 m ρ c (Proc.devRef .tc main_arg9) = (m ((c : Thread nD τ).loc main_arg9)) := by
  show StableHlo.after hostOps4 (W10 m ρ c) (Proc.devRef .tc main_arg9) = _
  after_results_pairs
  exact W10_arg9 m ρ c
/-- The result: the readout of the pooled features, the reference's last stage. -/
theorem W12_v99 (c : Dev nD) : W12 m ρ c (Proc.devRef .tc main_v99) = Cert.ReferenceIdeal.ReadP.val_main_v107 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W12_arr m ρ c 5).trans ((Cert.Region4.final (V11 m ρ) c).trans ?_)
  show readout (W11 m ρ c (Proc.devRef .tc main_v96)) (W11 m ρ c (Proc.devRef .tc main_arg7)) (W11 m ρ c (Proc.devRef .tc main_v97)) (W11 m ρ c (Proc.devRef .tc main_arg9)) (W11 m ρ c (Proc.devRef .tc main_v98)) = _
  rw [W11_v96, W11_arg7, W11_v97, W11_arg9, W11_v98]
  rfl

end Cert.Fold

end
-- ==== Proof.lean ====
/-
  A graph network: an embedding of one scalar per node into 128 features, three rounds of message passing (features times a
  weight matrix, rows gathered at each edge's source, scaled by dinv[src]·dinv[dst], summed at its destination, plus a bias),
  a sum of node rows per graph, and a readout tanh(p·W1 + b1)·W2 + b2. The kernel computes the embedding, the three
  feature products and the readout in five pipelined regions and leaves the index arithmetic, the gathers and the
  scatter-adds to the host; the reference does everything on the host.

  Over the extended reals the two agree term by term. Each region, read through its blocks, leaves in its output array the
  host's own function of the arrays it found: x·w + b is a product with a contracted axis of length one plus a broadcast
  row; a block of rows times the whole weight matrix is that block of the whole product; narrowing to bf16 is the
  identity and the accumulator starts at zero. Everything between the regions is the same host operations in both
  programs, applied to equal operands, and the bias vectors the kernel reshapes to a row are the rows the reference
  broadcasts. So the contents at each boundary of the kernel's run are the reference's stages of the launch arguments, and
  the result buffers end equal. No law of arithmetic beyond reading a sum over one index is used, so finiteness of the
  inputs is never opened.

  The frames are the programs' runs with the values dropped; the idealization rewrote nothing, so `preserves` is trivial.
-/
import proofs.«127445_j34351148433711_1_alg».proof.Defs
import proofs.«127445_j34351148433711_1_alg».proof.Proof.Gen.Kernel
import proofs.«127445_j34351148433711_1_alg».proof.Proof.Gen.Kernel.Frame
import proofs.«127445_j34351148433711_1_alg».proof.Proof.Gen.KernelIdeal
import proofs.«127445_j34351148433711_1_alg».proof.Proof.Gen.KernelIdeal.Frame
import proofs.«127445_j34351148433711_1_alg».proof.Proof.Gen.ReferenceIdeal
import proofs.«127445_j34351148433711_1_alg».proof.Proof.Gen.Pre_finite_inputs
import proofs.«127445_j34351148433711_1_alg».proof.Proof.KRun
import proofs.«127445_j34351148433711_1_alg».proof.Proof.FoldE
import proofs.«127445_j34351148433711_1_alg».proof.Proof.RefRead
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference's run with its result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both runs end with the result at the reference's last stage of the (shared) launch arguments. -/
theorem algebraic : Cert.algebraic_KernelIdeal_ReferenceIdeal := by
  intro m ρ m' ρ' _ hagree
  refine ⟨fun c => Cert.ReferenceIdeal.ReadP.val_main_v107 (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10)), ?_, ?_⟩
  · exact (θ_run Cert.KernelIdeal.defs _ _).mono (fun r h c => ⟨(h c).1.trans (Cert.Fold.W12_v99 m ρ c), (h c).2⟩)
      (Cert.KernelIdeal.KRun.run_result m ρ)
  · refine (θ_run Cert.ReferenceIdeal.defs _ _).mono (fun r h c => ⟨(h c).1.trans ?_, (h c).2⟩)
      (Cert.ReferenceIdeal.ValueP.run (F := Ideal) m' ρ')
    obtain ⟨h0, h1, h2, h3, h4, h5, h6, h7, h8, h9, h10⟩ := hagree c
    rw [Cert.ReferenceIdeal.ReadP.val_main_v107_eq, h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
